-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1 : Shape := ⟨1, ![1]⟩
abbrev S512x512x5 : Shape := ⟨3, ![512, 512, 5]⟩
abbrev S512x512 : Shape := ⟨2, ![512, 512]⟩
abbrev S512 : Shape := ⟨1, ![512]⟩
abbrev S5x32 : Shape := ⟨2, ![5, 32]⟩
abbrev S32 : Shape := ⟨1, ![32]⟩
abbrev S32x1 : Shape := ⟨2, ![32, 1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1 : S_.BroadcastsInDim S1 (![] : Fin 0 → Fin S1.rank)
  reducesTo_S1_S_d0 : S1.ReducesTo [0] S_
  bcast_S_S512x512x5 : S_.BroadcastsInDim S512x512x5 (![] : Fin 0 → Fin S512x512x5.rank)
  reducesTo_S512x512x5_S_d0_1_2 : S512x512x5.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part5 {F : FTy → Type} [FloatOps F] (main_arg18 : FVec F S1 .f32) (main_v83 : IVec S_ 1) (main_v84 : FVec F S32x1 .f32) (main_cst_32 : FVec F S_ .f32) : IVec S_ 1 :=
  let main_v85 : FVec F S32x1 .f32 := broadcastInDim S32x1 ![] bcast_S_S32x1 main_cst_32
  let main_v86 : IVec S32x1 1 := cmpf .olt main_v84 main_v85
  let main_c_33 : IVec S_ 1 := constantI S_ 1 1#1
  let main_v87 : IVec S_ 1 := (fun x v => Host.reduce IntOp.andi x v reducesTo_S32x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S1 .f32) (main_arg15 : FVec F S5x32 .f32) (main_arg16 : FVec F S32 .f32) (main_arg17 : FVec F S32x1 .f32) (main_arg18 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S5x32 .f32 := Host.absf main_arg15
  let main_cst_28 : FVec F S_ .f32 := constant S_ .f32 0x7F800000#32
  let main_v75 : FVec F S5x32 .f32 := broadcastInDim S5x32 ![] bcast_S_S5x32 main_cst_28
  let main_v76 : IVec S5x32 1 := cmpf .olt main_v74 main_v75
  let main_c_29 : IVec S_ 1 := constantI S_ 1 1#1
  let main_v77 : IVec S_ 1 := (fun x v => Host.reduce IntOp.andi x v reducesTo_S5x32_S_d0_1 h_S_) main_v76 main_c_29
  let main_v78 : IVec S_ 1 := andi main_v73 main_v77
  let main_v79 : FVec F S32 .f32 := Host.absf main_arg16
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x1 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S5x32 .f32 := Host.absf main_arg11
  let main_cst_20 : FVec F S_ .f32 := constant S_ .f32 0x7F800000#32
  let main_v55 : FVec F S5x32 .f32 := broadcastInDim S5x32 ![] bcast_S_S5x32 main_cst_20
  let main_v56 : IVec S5x32 1 := cmpf .olt main_v54 main_v55
  let main_c_21 : IVec S_ 1 := constantI S_ 1 1#1
  let main_v57 : IVec S_ 1 := (fun x v => Host.reduce IntOp.andi x v reducesTo_S5x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg13
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S16384x512 .f32) (main_arg1 : FVec F S1 .f32) (main_arg2 : FVec F S512x512x5 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S5x32 .f32) (main_arg12 : FVec F S32 .f32) (main_arg13 : FVec F S32x1 .f32) (main_arg14 : FVec F S1 .f32) (main_arg15 : FVec F S5x32 .f32) (main_arg16 : FVec F S32 .f32) (main_arg17 : FVec F S32x1 .f32) (main_arg18 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S512x512x5 .f32 := Host.absf main_arg2
  let main_cst_2 : FVec F S_ .f32 := constant S_ .f32 0x7F800000#32
  let main_v10 : FVec F S512x512x5 .f32 := broadcastInDim S512x512x5 ![] bcast_S_S512x512x5 main_cst_2
  let main_v11 : IVec S512x512x5 1 := cmpf .olt main_v9 main_v10
  let main_c_3 : IVec S_ 1 := constantI S_ 1 1#1
  let main_v12 : IVec S_ 1 := (fun x v => Host.reduce IntOp.andi x v reducesTo_S512x512x5_S_d0_1_2 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S16384x512 : Shape := ⟨2, ![16384, 512]⟩
abbrev S1 : Shape := ⟨1, ![1]⟩
abbrev S512x512x5 : Shape := ⟨3, ![512, 512, 5]⟩
abbrev S512x512 : Shape := ⟨2, ![512, 512]⟩
abbrev S512 : Shape := ⟨1, ![512]⟩
abbrev S5x32 : Shape := ⟨2, ![5, 32]⟩
abbrev S32 : Shape := ⟨1, ![32]⟩
abbrev S32x1 : Shape := ⟨2, ![32, 1]⟩
abbrev S_ : Shape := ⟨0, ![]⟩
abbrev S512x512x1 : Shape := ⟨3, ![512, 512, 1]⟩
abbrev S512x1536 : Shape := ⟨2, ![512, 1536]⟩
abbrev S1x512 : Shape := ⟨2, ![1, 512]⟩
abbrev S1x128 : Shape := ⟨2, ![1, 128]⟩
abbrev S16384x1 : Shape := ⟨2, ![16384, 1]⟩
abbrev S16384x5 : Shape := ⟨2, ![16384, 5]⟩
abbrev S16384x32 : Shape := ⟨2, ![16384, 32]⟩
abbrev S1x32 : Shape := ⟨2, ![1, 32]⟩
abbrev S1x1 : Shape := ⟨2, ![1, 1]⟩
abbrev S16384x126 : Shape := ⟨2, ![16384, 126]⟩
abbrev S16384x128 : Shape := ⟨2, ![16384, 128]⟩
abbrev S1024x512 : Shape := ⟨2, ![1024, 512]⟩
abbrev S1024x128 : Shape := ⟨2, ![1024, 128]⟩
abbrev S1024x1536 : Shape := ⟨2, ![1024, 1536]⟩
abbrev S1024 : Shape := ⟨1, ![1024]⟩
abbrev S1024x1 : Shape := ⟨2, ![1024, 1]⟩
abbrev S1024x384 : Shape := ⟨2, ![1024, 384]⟩

abbrev nBuf : Space → Nat
  | .hbm => 121
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S1, .f32⟩
  | .hbm, ⟨2, _⟩ => ⟨S512x512x5, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S5x32, .f32⟩
  | .hbm, ⟨12, _⟩ => ⟨S32, .f32⟩
  | .hbm, ⟨13, _⟩ => ⟨S32x1, .f32⟩
  | .hbm, ⟨14, _⟩ => ⟨S1, .f32⟩
  | .hbm, ⟨15, _⟩ => ⟨S5x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S_, .f32⟩
  | .hbm, ⟨20, _⟩ => ⟨S512x512x1, .f32⟩
  | .hbm, ⟨21, _⟩ => ⟨S512x512, .f32⟩
  | .hbm, ⟨22, _⟩ => ⟨S512x512x1, .f32⟩
  | .hbm, ⟨23, _⟩ => ⟨S512x512, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S512x512, .f32⟩
  | .hbm, ⟨28, _⟩ => ⟨S512x512, .f32⟩
  | .hbm, ⟨29, _⟩ => ⟨S512x512, .f32⟩
  | .hbm, ⟨30, _⟩ => ⟨S512x512x1, .f32⟩
  | .hbm, ⟨31, _⟩ => ⟨S512x512, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512x1, .f32⟩
  | .hbm, ⟨39, _⟩ => ⟨S512x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512x1, .f32⟩
  | .hbm, ⟨47, _⟩ => ⟨S512x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .bf16⟩
  | .hbm, ⟨56, _⟩ => ⟨S512x512, .bf16⟩
  | .hbm, ⟨57, _⟩ => ⟨S512x512, .bf16⟩
  | .hbm, ⟨58, _⟩ => ⟨S512x1536, .bf16⟩
  | .hbm, ⟨59, _⟩ => ⟨S1x512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S1x512, .f32⟩
  | .hbm, ⟨67, _⟩ => ⟨S_, .f32⟩
  | .hbm, ⟨68, _⟩ => ⟨S512, .f32⟩
  | .hbm, ⟨69, _⟩ => ⟨S_, .f32⟩
  | .hbm, ⟨70, _⟩ => ⟨S512, .f32⟩
  | .hbm, ⟨71, _⟩ => ⟨S512, .f32⟩
  | .hbm, ⟨72, _⟩ => ⟨S1x512, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1x128, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x1, .f32⟩
  | .hbm, ⟨89, _⟩ => ⟨S16384x5, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S16384x5, .f32⟩
  | .hbm, ⟨95, _⟩ => ⟨S16384x32, .f32⟩
  | .hbm, ⟨96, _⟩ => ⟨S1x32, .f32⟩
  | .hbm, ⟨97, _⟩ => ⟨S16384x32, .f32⟩
  | .hbm, ⟨98, _⟩ => ⟨S16384x32, .f32⟩
  | .hbm, ⟨99, _⟩ => ⟨S_, .f32⟩
  | .hbm, ⟨100, _⟩ => ⟨S16384x32, .f32⟩
  | .hbm, ⟨101, _⟩ => ⟨S16384x32, .f32⟩
  | .hbm, ⟨102, _⟩ => ⟨S16384x1, .f32⟩
  | .hbm, ⟨103, _⟩ => ⟨S1x1, .f32⟩
  | .hbm, ⟨104, _⟩ => ⟨S16384x1, .f32⟩
  | .hbm, ⟨105, _⟩ => ⟨S16384x1, .f32⟩
  | .hbm, ⟨106, _⟩ => ⟨S16384x32, .f32⟩
  | .hbm, ⟨107, _⟩ => ⟨S1x32, .f32⟩
  | .hbm, ⟨108, _⟩ => ⟨S16384x32, .f32⟩
  | .hbm, ⟨109, _⟩ => ⟨S16384x32, .f32⟩
  | .hbm, ⟨110, _⟩ => ⟨S_, .f32⟩
  | .hbm, ⟨111, _⟩ => ⟨S16384x32, .f32⟩
  | .hbm, ⟨112, _⟩ => ⟨S16384x32, .f32⟩
  | .hbm, ⟨113, _⟩ => ⟨S16384x1, .f32⟩
  | .hbm, ⟨114, _⟩ => ⟨S1x1, .f32⟩
  | .hbm, ⟨115, _⟩ => ⟨S16384x1, .f32⟩
  | .hbm, ⟨116, _⟩ => ⟨S16384x1, .f32⟩
  | .hbm, ⟨117, _⟩ => ⟨S_, .f32⟩
  | .hbm, ⟨118, _⟩ => ⟨S16384x126, .f32⟩
  | .hbm, ⟨119, _⟩ => ⟨S16384x128, .f32⟩
  | .hbm, ⟨120, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S1x512, .f32⟩
  | .local _ .vmem, ⟨8, _⟩ => ⟨S1x128, .f32⟩
  | .local _ .vmem, ⟨9, _⟩ => ⟨S1024x128, .f32⟩
  | .local _ .vmem, ⟨10, _⟩ => ⟨S1024x128, .f32⟩
  | .local _ .vmem, ⟨11, _⟩ => ⟨S1024x512, .f32⟩
  | .local _ .vmem, ⟨12, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_cst_4 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_v48 : Ref sig .tc := ⟨.hbm, 77, rfl⟩
abbrev main_cst_9 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_call0_cst : Ref sig .tc := ⟨.hbm, 99, rfl⟩
abbrev main_call0_v0 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_call1_cst : Ref sig .tc := ⟨.hbm, 110, rfl⟩
abbrev main_call1_v0 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_11 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S1_S_ : S1.ShapeCasts S_
  slices_S512x512x5_S512x512x1_0_0_0 : S512x512x5.Slices ![0, 0, 0] S512x512x1
  shapeCasts_S512x512x1_S512x512 : S512x512x1.ShapeCasts S512x512
  slices_S512x512x5_S512x512x1_0_0_1 : S512x512x5.Slices ![0, 0, 1] S512x512x1
  bcast_S_S512x512 : S_.BroadcastsInDim S512x512 (![] : Fin 0 → Fin S512x512.rank)
  slices_S512x512x5_S512x512x1_0_0_2 : S512x512x5.Slices ![0, 0, 2] S512x512x1
  slices_S512x512x5_S512x512x1_0_0_3 : S512x512x5.Slices ![0, 0, 3] S512x512x1
  slices_S512x512x5_S512x512x1_0_0_4 : S512x512x5.Slices ![0, 0, 4] S512x512x1
  transposes_S512x512_S512x512_1_0 : S512x512.Transposes [1, 0] S512x512
  bitsLt_bf16_f32 : FTy.bits .bf16 < FTy.bits .f32
  concatenates_S512x512_S512x512_S512x512_S512x1536_d1 : Shape.Concatenates [S512x512, S512x512, S512x512] S512x1536 1
  shapeCasts_S512_S1x512 : S512.ShapeCasts S1x512
  reducesTo_S512x512_S512_d1 : S512x512.ReducesTo [1] S512
  h_S_ : 0 < S_.numel
  bcast_S_S512 : S_.BroadcastsInDim S512 (![] : Fin 0 → Fin S512.rank)
  reducesTo_S512_S_d0 : S512.ReducesTo [0] S_
  bcast_S_S1x128 : S_.BroadcastsInDim S1x128 (![] : Fin 0 → Fin S1x128.rank)
  slices_S16384x512_S16384x1_0_0 : S16384x512.Slices ![0, 0] S16384x1
  slices_S16384x512_S16384x1_0_1 : S16384x512.Slices ![0, 1] S16384x1
  concatenates_S16384x1_S16384x1_S16384x1_S16384x1_S16384x1_S16384x5_d1 : Shape.Concatenates [S16384x1, S16384x1, S16384x1, S16384x1, S16384x1] S16384x5 1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x126 : S_.BroadcastsInDim S16384x126 (![] : Fin 0 → Fin S16384x126.rank)
  concatenates_S16384x1_S16384x1_S16384x126_S16384x128_d1 : Shape.Concatenates [S16384x1, S16384x1, S16384x126] S16384x128 1
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  slices_S1024x1536_o0_0_S1024x512 : S1024x1536.Slices ![0, 0] S1024x512
  slices_S1024x1536_o0_512_S1024x512 : S1024x1536.Slices ![0, 512] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x1536_o0_1024_S1024x512 : S1024x1536.Slices ![0, 1024] S1024x512
  reduces_S1024x512_S1024 : S1024x512.Reduces [1] S1024
  shapeCasts_S1024_S1024x1 : S1024.ShapeCasts S1024x1
  inb_S1x128_S1x1_0_0 : ∀ a, (![0, 0] : Fin 2 → Nat) a + S1x1.size a ≤ S1x128.size a
  h_S1x1 : 0 < S1x1.numel
  shapeCasts_S1x1_S1x1 : S1x1.ShapeCasts S1x1
  broadcasts_S1x1_S1024x1 : S1x1.Broadcasts S1024x1
  shapeCasts_S1024x1_S1024x1 : S1024x1.ShapeCasts S1024x1
  broadcasts_S1024x1_S1024x512 : S1024x1.Broadcasts S1024x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x512_o0_0_S1024x128 : S1024x512.Slices ![0, 0] S1024x128
  slices_S1024x512_o0_128_S1024x384 : S1024x512.Slices ![0, 128] S1024x384
  inb_S1024x512_S1024x128_0_0 : ∀ a, (![0, 0] : Fin 2 → Nat) a + S1024x128.size a ≤ S1024x512.size a
  inb_S1024x512_S1024x384_0_128 : ∀ a, (![0, 128] : Fin 2 → Nat) a + S1024x384.size a ≤ S1024x512.size a
  h_S1024x384 : 0 < S1024x384.numel
  dot_S16384x5_S5x32_S16384x32_1_0_0_1_n_n_wf : DotDims.WF S16384x5 S5x32 S16384x32 [1] [0] [0] [1] [] []
  dot_S16384x32_S32x1_S16384x1_1_0_0_1_n_n_wf : DotDims.WF S16384x32 S32x1 S16384x1 [1] [0] [0] [1] [] []
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S16384x128.size a
  hwx0_8 : ∀ i : grid0.Coords, EltTy.bits .f32 = 32 ∨ (Rect.block (s := S16384x128) S1024x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S16384x512.size a
  hwx0_9 : ∀ i : grid0.Coords, EltTy.bits .f32 = 32 ∨ (Rect.block (s := S16384x512) S1024x512.size (cc0_transform_9 i) (hinb0_9 i)).WholeWords (EltTy.packing .f32)

variable [Facts₀]

def dot_S16384x5_S5x32_S16384x32_1_0_0_1_n_n : DotDims S16384x5 S5x32 S16384x32 where
  lhsContracting := [1]
  rhsContracting := [0]
  lhsNonContracting := [0]
  rhsNonContracting := [1]
  lhsBatch := []
  rhsBatch := []
  wf := dot_S16384x5_S5x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf
def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v51) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v83) S1024x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v84) S1024x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S1 : Shape := ⟨1, ![1]⟩
abbrev S512x512x5 : Shape := ⟨3, ![512, 512, 5]⟩
abbrev S512x512 : Shape := ⟨2, ![512, 512]⟩
abbrev S512 : Shape := ⟨1, ![512]⟩
abbrev S5x32 : Shape := ⟨2, ![5, 32]⟩
abbrev S32 : Shape := ⟨1, ![32]⟩
abbrev S32x1 : Shape := ⟨2, ![32, 1]⟩
abbrev S_ : Shape := ⟨0, ![]⟩
abbrev S512x512x1 : Shape := ⟨3, ![512, 512, 1]⟩
abbrev S1x512 : Shape := ⟨2, ![1, 512]⟩
abbrev S16384 : Shape := ⟨1, ![16384]⟩
abbrev S16384x1 : Shape := ⟨2, ![16384, 1]⟩
abbrev S16384x5 : Shape := ⟨2, ![16384, 5]⟩
abbrev S16384x32 : Shape := ⟨2, ![16384, 32]⟩
abbrev S1x32 : Shape := ⟨2, ![1, 32]⟩
abbrev S1x1 : Shape := ⟨2, ![1, 1]⟩
abbrev S16384x510 : Shape := ⟨2, ![16384, 510]⟩

abbrev nBuf : Space → Nat
  | .hbm => 131
  | .vmem => 0
  | .smem => 0
  | _ => 0

abbrev hbmTy0_0 (i : Nat) : BufTy := match i % 128 with
  | 0 => ⟨S16384x512, .f32⟩
  | 1 => ⟨S1, .f32⟩
  | 2 => ⟨S512x512x5, .f32⟩
  | 3 => ⟨S512x512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S5x32, .f32⟩
  | 12 => ⟨S32, .f32⟩
  | 13 => ⟨S32x1, .f32⟩
  | 14 => ⟨S1, .f32⟩
  | 15 => ⟨S5x32, .f32⟩
  | 16 => ⟨S32, .f32⟩
  | 17 => ⟨S32x1, .f32⟩
  | 18 => ⟨S1, .f32⟩
  | 19 => ⟨S_, .f32⟩
  | 20 => ⟨S512x512x1, .f32⟩
  | 21 => ⟨S512x512, .f32⟩
  | 22 => ⟨S512x512x1, .f32⟩
  | 23 => ⟨S512x512, .f32⟩
  | 24 => ⟨S_, .f32⟩
  | 25 => ⟨S_, .f32⟩
  | 26 => ⟨S_, .f32⟩
  | 27 => ⟨S512x512, .f32⟩
  | 28 => ⟨S512x512, .f32⟩
  | 29 => ⟨S512x512, .f32⟩
  | 30 => ⟨S512x512x1, .f32⟩
  | 31 => ⟨S512x512, .f32⟩
  | 32 => ⟨S_, .f32⟩
  | 33 => ⟨S_, .f32⟩
  | 34 => ⟨S_, .f32⟩
  | 35 => ⟨S512x512, .f32⟩
  | 36 => ⟨S512x512, .f32⟩
  | 37 => ⟨S512x512, .f32⟩
  | 38 => ⟨S512x512x1, .f32⟩
  | 39 => ⟨S512x512, .f32⟩
  | 40 => ⟨S_, .f32⟩
  | 41 => ⟨S_, .f32⟩
  | 42 => ⟨S_, .f32⟩
  | 43 => ⟨S512x512, .f32⟩
  | 44 => ⟨S512x512, .f32⟩
  | 45 => ⟨S512x512, .f32⟩
  | 46 => ⟨S512x512x1, .f32⟩
  | 47 => ⟨S512x512, .f32⟩
  | 48 => ⟨S_, .f32⟩
  | 49 => ⟨S_, .f32⟩
  | 50 => ⟨S_, .f32⟩
  | 51 => ⟨S512x512, .f32⟩
  | 52 => ⟨S512x512, .f32⟩
  | 53 => ⟨S512x512, .f32⟩
  | 54 => ⟨S16384x512, .f32⟩
  | 55 => ⟨S16384x512, .f32⟩
  | 56 => ⟨S1x512, .f32⟩
  | 57 => ⟨S16384x512, .f32⟩
  | 58 => ⟨S16384x512, .f32⟩
  | 59 => ⟨S_, .f32⟩
  | 60 => ⟨S16384x512, .f32⟩
  | 61 => ⟨S16384x512, .f32⟩
  | 62 => ⟨S16384x512, .f32⟩
  | 63 => ⟨S1x512, .f32⟩
  | 64 => ⟨S16384x512, .f32⟩
  | 65 => ⟨S16384x512, .f32⟩
  | 66 => ⟨S16384x512, .f32⟩
  | 67 => ⟨S1x512, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S1x512, .f32⟩
  | 75 => ⟨S16384x512, .f32⟩
  | 76 => ⟨S16384x512, .f32⟩
  | 77 => ⟨S_, .f32⟩
  | 78 => ⟨S16384, .f32⟩
  | 79 => ⟨S16384x1, .f32⟩
  | 80 => ⟨S_, .f32⟩
  | 81 => ⟨S16384x1, .f32⟩
  | 82 => ⟨S16384x1, .f32⟩
  | 83 => ⟨S16384x512, .f32⟩
  | 84 => ⟨S_, .f32⟩
  | 85 => ⟨S16384, .f32⟩
  | 86 => ⟨S16384x1, .f32⟩
  | 87 => ⟨S_, .f32⟩
  | 88 => ⟨S16384x1, .f32⟩
  | 89 => ⟨S16384x1, .f32⟩
  | 90 => ⟨S16384x512, .f32⟩
  | 91 => ⟨S16384x512, .f32⟩
  | 92 => ⟨S16384x1, .f32⟩
  | 93 => ⟨S16384x1, .f32⟩
  | 94 => ⟨S16384x1, .f32⟩
  | 95 => ⟨S16384x1, .f32⟩
  | 96 => ⟨S16384x1, .f32⟩
  | 97 => ⟨S16384x1, .f32⟩
  | 98 => ⟨S16384x5, .f32⟩
  | 99 => ⟨S16384x1, .f32⟩
  | 100 => ⟨S16384x1, .f32⟩
  | 101 => ⟨S16384x1, .f32⟩
  | 102 => ⟨S16384x1, .f32⟩
  | 103 => ⟨S16384x5, .f32⟩
  | 104 => ⟨S16384x32, .f32⟩
  | 105 => ⟨S1x32, .f32⟩
  | 106 => ⟨S16384x32, .f32⟩
  | 107 => ⟨S16384x32, .f32⟩
  | 108 => ⟨S_, .f32⟩
  | 109 => ⟨S16384x32, .f32⟩
  | 110 => ⟨S16384x32, .f32⟩
  | 111 => ⟨S16384x1, .f32⟩
  | 112 => ⟨S1x1, .f32⟩
  | 113 => ⟨S16384x1, .f32⟩
  | 114 => ⟨S16384x1, .f32⟩
  | 115 => ⟨S16384x32, .f32⟩
  | 116 => ⟨S1x32, .f32⟩
  | 117 => ⟨S16384x32, .f32⟩
  | 118 => ⟨S16384x32, .f32⟩
  | 119 => ⟨S_, .f32⟩
  | 120 => ⟨S16384x32, .f32⟩
  | 121 => ⟨S16384x32, .f32⟩
  | 122 => ⟨S16384x1, .f32⟩
  | 123 => ⟨S1x1, .f32⟩
  | 124 => ⟨S16384x1, .f32⟩
  | 125 => ⟨S16384x1, .f32⟩
  | 126 => ⟨S_, .f32⟩
  | 127 => ⟨S16384x510, .f32⟩
  | _ => ⟨S16384x512, .f32⟩

abbrev hbmTy0_1 (i : Nat) : BufTy := match i % 128 with
  | 0 => ⟨S16384x512, .f32⟩
  | 1 => ⟨S16384x512, .f32⟩
  | 2 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call0_cst : Ref sig .tc := ⟨.hbm, 59, rfl⟩
abbrev main_call0_v0 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_cst : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_v55 : Ref sig .tc := ⟨.hbm, 85, rfl⟩
abbrev main_v56 : Ref sig .tc := ⟨.hbm, 86, rfl⟩
abbrev main_cst_6 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_call2_cst : Ref sig .tc := ⟨.hbm, 108, rfl⟩
abbrev main_call2_v0 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call3_cst : Ref sig .tc := ⟨.hbm, 119, rfl⟩
abbrev main_call3_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_7 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]

class Facts₀ : Prop where
  shapeCasts_S1_S_ : S1.ShapeCasts S_
  slices_S512x512x5_S512x512x1_0_0_0 : S512x512x5.Slices ![0, 0, 0] S512x512x1
  shapeCasts_S512x512x1_S512x512 : S512x512x1.ShapeCasts S512x512
  slices_S512x512x5_S512x512x1_0_0_1 : S512x512x5.Slices ![0, 0, 1] S512x512x1
  bcast_S_S512x512 : S_.BroadcastsInDim S512x512 (![] : Fin 0 → Fin S512x512.rank)
  slices_S512x512x5_S512x512x1_0_0_2 : S512x512x5.Slices ![0, 0, 2] S512x512x1
  slices_S512x512x5_S512x512x1_0_0_3 : S512x512x5.Slices ![0, 0, 3] S512x512x1
  slices_S512x512x5_S512x512x1_0_0_4 : S512x512x5.Slices ![0, 0, 4] S512x512x1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  slices_S16384x512_S16384x1_0_0 : S16384x512.Slices ![0, 0] S16384x1
  slices_S16384x512_S16384x1_0_1 : S16384x512.Slices ![0, 1] S16384x1
  concatenates_S16384x1_S16384x1_S16384x1_S16384x1_S16384x1_S16384x5_d1 : Shape.Concatenates [S16384x1, S16384x1, S16384x1, S16384x1, S16384x1] S16384x5 1
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x510 : S_.BroadcastsInDim S16384x510 (![] : Fin 0 → Fin S16384x510.rank)
  concatenates_S16384x1_S16384x1_S16384x510_S16384x512_d1 : Shape.Concatenates [S16384x1, S16384x1, S16384x510] S16384x512 1
  dot_S16384x512_S512x512_S16384x512_1_1_0_0_n_n_wf : DotDims.WF S16384x512 S512x512 S16384x512 [1] [1] [0] [0] [] []
  dot_S16384x512_S512x512_S16384x512_1_0_0_1_n_n_wf : DotDims.WF S16384x512 S512x512 S16384x512 [1] [0] [0] [1] [] []
  dot_S16384x5_S5x32_S16384x32_1_0_0_1_n_n_wf : DotDims.WF S16384x5 S5x32 S16384x32 [1] [0] [0] [1] [] []
  dot_S16384x32_S32x1_S16384x1_1_0_0_1_n_n_wf : DotDims.WF S16384x32 S32x1 S16384x1 [1] [0] [0] [1] [] []

variable [Facts₀]

def dot_S16384x512_S512x512_S16384x512_1_1_0_0_n_n : DotDims S16384x512 S512x512 S16384x512 where
  lhsContracting := [1]
  rhsContracting := [1]
  lhsNonContracting := [0]
  rhsNonContracting := [0]
  lhsBatch := []
  rhsBatch := []
  wf := dot_S16384x512_S512x512_S16384x512_1_1_0_0_n_n_wf
def dot_S16384x512_S512x512_S16384x512_1_0_0_1_n_n : DotDims S16384x512 S512x512 S16384x512 where
  lhsContracting := [1]
  rhsContracting := [0]
  lhsNonContracting := [0]
  rhsNonContracting := [1]
  lhsBatch := []
  rhsBatch := []
  wf := dot_S16384x512_S512x512_S16384x512_1_0_0_1_n_n_wf
def dot_S16384x5_S5x32_S16384x32_1_0_0_1_n_n : DotDims S16384x5 S5x32 S16384x32 where
  lhsContracting := [1]
  rhsContracting := [0]
  lhsNonContracting := [0]
  rhsNonContracting := [1]
  lhsBatch := []
  rhsBatch := []
  wf := dot_S16384x5_S5x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.KData.lean ====
/-
  The arrays as the kernel's one pipelined region finds them. Before it launches the region, the program's
  entry function runs five stretches of host operations (the seasonal operator's Fourier combination and its
  transpose, the three weight matrices rounded and laid side by side, the second layers' row means, the two
  small ENSO networks and their packing into 128 lanes); every buffer the region reads is one of the entry
  function's arguments or a result of these operations. `V m c b` is what buffer `b` of core `c` holds once
  they have all run from the launch memory `m`.
-/
import proofs.«131511_j39754217292306_2_alg».proof.Proof.Gen.KernelIdeal.Launch

noncomputable section

namespace Cert.KernelIdeal.Entry

open Cert.KernelIdeal Cert.KernelIdeal.Gen
open Idealize.ShloMosaic Idealize.ShloMosaic.TcCoe Idealize.SL.Sem

variable {F : FTy → Type} [FloatOps F]

/-- The host operations the entry function runs before the region, stretch by stretch, in program order. -/
abbrev hostStretches : List (List (HloOp τ sig (Elt F))) :=
  [hostOps0, hostOps0_1, hostOps0_2, hostOps0_3, hostOps0_4]

/-- Core `c`'s buffers when the region is entered: the launch memory after every host operation before it. -/
abbrev V (m : (ℓ : Loc nD τ sig) → Buf (Elt F) ℓ) (c : Dev nD) (b : Ref sig .tc) : Buf (Elt F) ((c : Thread nD τ).loc b) :=
  StableHlo.after (List.flatten (hostStretches (F := F))) (fun b => m (c, b)) b

end Cert.KernelIdeal.Entry

end
-- ==== Proof.KBlocks.lean ====
/-
  The blocks the kernel's body works on, and what it leaves behind.

  The pipelined region visits sixteen grid points; at point `t` its body sees one block of each of its ten
  windows. Nine are inputs: a 1024-row tile of the activations (window 0), the whole concatenated weight matrix
  [512, 1536] (window 1), five rows of 512 lanes and two rows of 128 lanes that never move (windows 2-7), and the
  matching 1024-row tile of the 128-lane ENSO pack (window 8). The tenth is the output tile [1024, 512].

  `iblk m c w t` is window `w`'s block at point `t`, read off its array as the region finds it.
  The body stores its output tile in two column bands - lanes 0..127 (the seasonal sum plus the ENSO pack) and
  lanes 128..511 (the seasonal sum alone) - which together tile it; `outBlock` is the tile those two stores
  leave, as a function of the nine input blocks alone. `dats` records, per core, the arrays at the region's
  entry and, after the body at each point, every input buffer still at its block and the output buffer at
  `outBlock` of the input blocks.
-/
import proofs.«131511_j39754217292306_2_alg».proof.Proof.KData
import proofs.«131511_j39754217292306_2_alg».proof.Proof.Gen.KernelIdeal.Skeleton
import proofs.«131511_j39754217292306_2_alg».proof.Proof.Gen.KernelIdeal.Points
import Idealize.ShloMosaic.Lib.Pipeline.FrameBody

set_option maxRecDepth 16384

noncomputable section

namespace Cert.KernelIdeal.Entry

open Cert.KernelIdeal Cert.KernelIdeal.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-! ## A window's block at a grid point -/

/-- Window `w`'s block at point `t`: the part of its array (as the region finds it, `V`) that the pipeline
    stages for the body there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

/-- The whole activation tile [1024, 512]. -/
abbrev rectTile : Rect S1024x512 := Rect.unit (s := S1024x512) ![0, 0] S1024x512.size inb_S1024x512_S1024x512_0_0
/-- The whole concatenated weight matrix [512, 1536]. -/
abbrev rectWeights : Rect S512x1536 := Rect.unit (s := S512x1536) ![0, 0] S512x1536.size inb_S512x1536_S512x1536_0_0
/-- A whole row of 512 lanes (a first-layer bias or a second layer's row mean). -/
abbrev rectRow : Rect S1x512 := Rect.unit (s := S1x512) ![0, 0] S1x512.size inb_S1x512_S1x512_0_0
/-- The first lane of a 128-lane row (a second-layer bias mean, broadcast over the lanes by the host). -/
abbrev rectLane0 : Rect S1x128 := Rect.unit (s := S1x128) ![0, 0] S1x1.size inb_S1x128_S1x1_0_0
/-- The whole ENSO tile [1024, 128]. -/
abbrev rectEnso : Rect S1024x128 := Rect.unit (s := S1024x128) ![0, 0] S1024x128.size inb_S1024x128_S1024x128_0_0
/-- Lanes 0..127 of the output tile: where the ENSO pack is added. -/
abbrev rectOutLo : Rect S1024x512 := Rect.unit (s := S1024x512) ![0, 0] S1024x128.size inb_S1024x512_S1024x128_0_0
/-- Lanes 128..511 of the output tile. -/
abbrev rectOutHi : Rect S1024x512 := Rect.unit (s := S1024x512) ![0, 128] S1024x384.size inb_S1024x512_S1024x384_0_128

/-! ## What the body leaves in the output tile -/

/-- The output tile after the body, from the nine input blocks: the seasonal sum (linear part, the two
    mean-pooled hidden layers and their bias means, all functions of the activation tile `x0`, the weights `x1`
    and the rows `x2` … `x7`) stored in two column bands, the lower band with the ENSO tile `x8` added. The bands
    are listed last store first. -/
def outBlock (x0 : Vec F S1024x512 .f32) (x1 : Vec F S512x1536 .bf16) (x2 : Vec F S1x512 .f32) (x3 : Vec F S1x512 .f32)
    (x4 : Vec F S1x512 .f32) (x5 : Vec F S1x128 .f32) (x6 : Vec F S1x512 .f32) (x7 : Vec F S1x128 .f32)
    (x8 : Vec F S1024x128 .f32) : Vec F S1024x512 .f32 :=
  View.canon
    [⟨rectOutHi, k0_pay3 (k0_pay5 (View.ld x0 rectTile) (View.ld x1 rectWeights))
        (k0_pay6 (View.ld x0 rectTile) (View.ld x1 rectWeights) (View.ld x2 rectRow) (View.ld x4 rectRow) (View.ld x5 rectLane0))
        (k0_pay7 (View.ld x0 rectTile) (View.ld x1 rectWeights) (View.ld x3 rectRow) (View.ld x6 rectRow))
        (k0_pay8 (View.ld x7 rectLane0))⟩,
     ⟨rectOutLo, k0_pay2 (k0_pay5 (View.ld x0 rectTile) (View.ld x1 rectWeights))
        (k0_pay6 (View.ld x0 rectTile) (View.ld x1 rectWeights) (View.ld x2 rectRow) (View.ld x4 rectRow) (View.ld x5 rectLane0))
        (k0_pay7 (View.ld x0 rectTile) (View.ld x1 rectWeights) (View.ld x3 rectRow) (View.ld x6 rectRow))
        (k0_pay8 (View.ld x7 rectLane0))
        (View.ld x8 rectEnso)⟩]

/-! ## What is claimed of the pipeline, core by core -/

/-- What is claimed of the one pipeline on core `c`: the arrays as the region finds them; after the body at point
    `t` each input buffer still at its block and the output buffer at `outBlock` of the input blocks; the
    invariant the untouched rest of the core (its scratch and generator register); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t)
        (iblk m c 5 t) (iblk m c 6 t) (iblk m c 7 t) (iblk m c 8 t)
  Φ _ := Pipeline.ΦA spec0 c
  q _ := fullShare
  owed _ := 0

/-- The arrays `dats` names are the region-entry contents. -/
theorem A_eq (c : Dev nD) (w : Fin cfg0.W) : (dats m 0 c).A w = V m c (Pipeline.arrRef spec0 w) := by
  dsimp only [dats]

/-- The body leaves every input buffer at its block. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]

/-- The body leaves the output buffer at `outBlock` of the nine input blocks. -/
theorem after_out (c : Dev nD) (t : Fin cfg0.N) :
    (dats m 0 c).after 9 t = outBlock (iblk m c 0 t) (iblk m c 1 t) (iblk m c 2 t) (iblk m c 3 t) (iblk m c 4 t)
      (iblk m c 5 t) (iblk m c 6 t) (iblk m c 7 t) (iblk m c 8 t) := by dsimp only [dats]

end Cert.KernelIdeal.Entry

end
-- ==== Proof.KFrame.lean ====
/-
  The frame of the kernel program: every weakly fair execution of the entry function terminates without a fault and
  leaves its nineteen argument arrays as launched.

  The entry function runs five stretches of host operations and then one pipelined region of sixteen grid points.
  The host operations only write their own results, never an argument. The region stages ten windows; at each
  point its body loads the nine input blocks, computes, and stores the output tile in two column bands that
  together tile it, so after the body the output buffer holds `outBlock` of the input blocks and every input buffer
  still holds its block. Of the arguments only the activations are staged by a window, and that window is an input:
  the region reads it and never writes it back. The other eighteen arguments are touched by nothing at all.
-/
import proofs.«131511_j39754217292306_2_alg».proof.Proof.KBlocks
import Idealize.ShloMosaic.Lib.Pipeline.FrameBody
import Idealize.ShloMosaic.Lib.Ring
import Idealize.ShloMosaic.Lib.Tactic

set_option maxRecDepth 16384

noncomputable section

namespace Cert.KernelIdeal.Entry

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the region

The five stretches of host operations allocate nothing and each operation writes exactly one buffer, its result;
none of these results is an argument of the entry function. -/

/-- No operation of this stretch (the seasonal operator, the weight matrix, the row means and the ENSO features) allocates a buffer. -/
theorem hostOps0_fresh : (hostOps0 : List (HloOp τ sig (Elt F))).Forall fun op => op.fresh = ∅ := by
  simp only [List.Forall]; repeat' constructor
/-- No operation of this stretch (the first ENSO network's rectifier) allocates a buffer. -/
theorem hostOps0_1_fresh : (hostOps0_1 : List (HloOp τ sig (Elt F))).Forall fun op => op.fresh = ∅ := by
  simp only [List.Forall]; repeat' constructor
/-- No operation of this stretch (the first ENSO network's output and the second's hidden layer) allocates a buffer. -/
theorem hostOps0_2_fresh : (hostOps0_2 : List (HloOp τ sig (Elt F))).Forall fun op => op.fresh = ∅ := by
  simp only [List.Forall]; repeat' constructor
/-- No operation of this stretch (the second ENSO network's rectifier) allocates a buffer. -/
theorem hostOps0_3_fresh : (hostOps0_3 : List (HloOp τ sig (Elt F))).Forall fun op => op.fresh = ∅ := by
  simp only [List.Forall]; repeat' constructor
/-- No operation of this stretch (the second ENSO network's output and the 128-lane pack) allocates a buffer. -/
theorem hostOps0_4_fresh : (hostOps0_4 : List (HloOp τ sig (Elt F))).Forall fun op => op.fresh = ∅ := by
  simp only [List.Forall]; repeat' constructor

/-- Every buffer some host operation before the region writes: the operations' results, in program order. -/
abbrev hostResults : List (Ref sig .tc) :=
  [main_v0, main_v1, main_v2, main_v3, main_v4, main_cst, main_v5, main_v6, main_v7, main_v8, main_v9, main_v10, main_v11, main_cst_0, main_v12, main_v13, main_v14, main_v15, main_v16, main_v17, main_v18, main_cst_1, main_v19, main_v20, main_v21, main_v22, main_v23, main_v24, main_v25, main_cst_2, main_v26, main_v27, main_v28, main_v29, main_v30, main_v31, main_v32, main_v33, main_v34, main_v35, main_v36, main_v37, main_cst_3, main_v38, main_cst_4, main_v39, main_v40, main_v41, main_cst_5, main_v42, main_cst_6, main_v43, main_v44, main_v45, main_cst_7, main_v46, main_cst_8, main_v47, main_v48, main_cst_9, main_v49, main_cst_10, main_v50, main_v51, main_v52, main_v53, main_v54, main_v55, main_v56, main_v57, main_v58, main_v59, main_v60, main_v61, main_v62, main_v63, main_v64, main_v65, main_v66, main_v67, main_call0_cst, main_call0_v0, main_v68, main_v69, main_v70, main_v71, main_v72, main_v73, main_v74, main_v75, main_v76, main_call1_cst, main_call1_v0, main_v77, main_v78, main_v79, main_v80, main_v81, main_cst_11, main_v82, main_v83]

/-- Each operation of this stretch writes one of `hostResults`. -/
theorem hostOps0_writes : (hostOps0 : List (HloOp τ sig (Elt F))).Forall fun op => op.writes ⊆ (hostResults.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_1_writes : (hostOps0_1 : List (HloOp τ sig (Elt F))).Forall fun op => op.writes ⊆ (hostResults.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_2_writes : (hostOps0_2 : List (HloOp τ sig (Elt F))).Forall fun op => op.writes ⊆ (hostResults.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_3_writes : (hostOps0_3 : List (HloOp τ sig (Elt F))).Forall fun op => op.writes ⊆ (hostResults.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_4_writes : (hostOps0_4 : List (HloOp τ sig (Elt F))).Forall fun op => op.writes ⊆ (hostResults.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- So does every operation of the five stretches taken together. -/
theorem host_writes : (List.flatten (hostStretches (F := F))).Forall fun op => op.writes ⊆ (hostResults.map (Proc.devRef (τ := τ) .tc)).toFinset := by
  simp only [hostStretches, List.flatten_cons, List.flatten_nil, List.append_nil, List.forall_append]
  exact ⟨hostOps0_writes, hostOps0_1_writes, hostOps0_2_writes, hostOps0_3_writes, hostOps0_4_writes⟩

/-- The entry function is its five stretches of host operations followed by the region, and the region finds each
    buffer at what the stretches leave there. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostStretches
    (by simp only [hostStretches, List.Forall]; exact ⟨hostOps0_sub, hostOps0_1_sub, hostOps0_2_sub, hostOps0_3_sub, hostOps0_4_sub⟩)
    (by simp only [hostStretches, List.Forall]; exact ⟨hostOps0_fresh, hostOps0_1_fresh, hostOps0_2_fresh, hostOps0_3_fresh, hostOps0_4_fresh⟩) main_chain

/-! ## The arguments as the region finds them

No host operation writes an argument of the entry function, so the region finds each as launched. -/

theorem V_main_arg0 (c : Dev nD) : V m c main_arg0 = m ((c : Thread nD τ).loc main_arg0) :=
  StableHlo.after_of_writes_sub (List.flatten hostStretches) _ host_writes (by decide)
theorem V_main_arg1 (c : Dev nD) : V m c main_arg1 = m ((c : Thread nD τ).loc main_arg1) :=
  StableHlo.after_of_writes_sub (List.flatten hostStretches) _ host_writes (by decide)
theorem V_main_arg2 (c : Dev nD) : V m c main_arg2 = m ((c : Thread nD τ).loc main_arg2) :=
  StableHlo.after_of_writes_sub (List.flatten hostStretches) _ host_writes (by decide)
theorem V_main_arg3 (c : Dev nD) : V m c main_arg3 = m ((c : Thread nD τ).loc main_arg3) :=
  StableHlo.after_of_writes_sub (List.flatten hostStretches) _ host_writes (by decide)
theorem V_main_arg4 (c : Dev nD) : V m c main_arg4 = m ((c : Thread nD τ).loc main_arg4) :=
  StableHlo.after_of_writes_sub (List.flatten hostStretches) _ host_writes (by decide)
theorem V_main_arg5 (c : Dev nD) : V m c main_arg5 = m ((c : Thread nD τ).loc main_arg5) :=
  StableHlo.after_of_writes_sub (List.flatten hostStretches) _ host_writes (by decide)
theorem V_main_arg6 (c : Dev nD) : V m c main_arg6 = m ((c : Thread nD τ).loc main_arg6) :=
  StableHlo.after_of_writes_sub (List.flatten hostStretches) _ host_writes (by decide)
theorem V_main_arg7 (c : Dev nD) : V m c main_arg7 = m ((c : Thread nD τ).loc main_arg7) :=
  StableHlo.after_of_writes_sub (List.flatten hostStretches) _ host_writes (by decide)
theorem V_main_arg8 (c : Dev nD) : V m c main_arg8 = m ((c : Thread nD τ).loc main_arg8) :=
  StableHlo.after_of_writes_sub (List.flatten hostStretches) _ host_writes (by decide)
theorem V_main_arg9 (c : Dev nD) : V m c main_arg9 = m ((c : Thread nD τ).loc main_arg9) :=
  StableHlo.after_of_writes_sub (List.flatten hostStretches) _ host_writes (by decide)
theorem V_main_arg10 (c : Dev nD) : V m c main_arg10 = m ((c : Thread nD τ).loc main_arg10) :=
  StableHlo.after_of_writes_sub (List.flatten hostStretches) _ host_writes (by decide)
theorem V_main_arg11 (c : Dev nD) : V m c main_arg11 = m ((c : Thread nD τ).loc main_arg11) :=
  StableHlo.after_of_writes_sub (List.flatten hostStretches) _ host_writes (by decide)
theorem V_main_arg12 (c : Dev nD) : V m c main_arg12 = m ((c : Thread nD τ).loc main_arg12) :=
  StableHlo.after_of_writes_sub (List.flatten hostStretches) _ host_writes (by decide)
theorem V_main_arg13 (c : Dev nD) : V m c main_arg13 = m ((c : Thread nD τ).loc main_arg13) :=
  StableHlo.after_of_writes_sub (List.flatten hostStretches) _ host_writes (by decide)
theorem V_main_arg14 (c : Dev nD) : V m c main_arg14 = m ((c : Thread nD τ).loc main_arg14) :=
  StableHlo.after_of_writes_sub (List.flatten hostStretches) _ host_writes (by decide)
theorem V_main_arg15 (c : Dev nD) : V m c main_arg15 = m ((c : Thread nD τ).loc main_arg15) :=
  StableHlo.after_of_writes_sub (List.flatten hostStretches) _ host_writes (by decide)
theorem V_main_arg16 (c : Dev nD) : V m c main_arg16 = m ((c : Thread nD τ).loc main_arg16) :=
  StableHlo.after_of_writes_sub (List.flatten hostStretches) _ host_writes (by decide)
theorem V_main_arg17 (c : Dev nD) : V m c main_arg17 = m ((c : Thread nD τ).loc main_arg17) :=
  StableHlo.after_of_writes_sub (List.flatten hostStretches) _ host_writes (by decide)
theorem V_main_arg18 (c : Dev nD) : V m c main_arg18 = m ((c : Thread nD τ).loc main_arg18) :=
  StableHlo.after_of_writes_sub (List.flatten hostStretches) _ host_writes (by decide)

/-! ## The two stores tile the output tile -/

/-- Cut into bands of 128 lanes, the two stored column bands are the tile's four 128-lane bands: every entry of the
    output tile lies in one of the two stores, whatever they store. -/
theorem outBlock_cover (pHi : Vec F S1024x384 .f32) (pLo : Vec F S1024x128 .f32) (y : S1024x512.Idx) :
    ∃ pc ∈ ([⟨rectOutHi, pHi⟩, ⟨rectOutLo, pLo⟩] : List (View.Piece (Elt F) S1024x512 .f32)), y ∈ pc.1.set :=
  View.cover_of_tiledBy [⟨rectOutHi, pHi⟩, ⟨rectOutLo, pLo⟩] ![1024, 128] (by sl_kernel_rfl) y

/-! ## The body's triple -/

set_option maxHeartbeats 1000000 in
/-- The kernel body on whole staging buffers - the nine inputs' holding `x0` … `x8`, the output's holding anything -
    runs without a fault to a state where the inputs' buffers hold what they held and the output's holds
    `outBlock x0 … x8`: it loads the inputs, loads the output buffer twice without using what it reads, and its two
    stores cover the output tile. -/
theorem sound_kernel (c : Dev nD) (E : Set ℕ) (i : grid0.Coords) (arg1 : Memref sig .tc .vmem S1024x512 .f32) (harg1 : arg1.IsWhole) (arg2 : Memref sig .tc .vmem S512x1536 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x512 .f32) (harg10 : arg10.IsWhole)
    (x0 : Vec F S1024x512 .f32) (x1 : Vec F S512x1536 .bf16) (x2 : Vec F S1x512 .f32) (x3 : Vec F S1x512 .f32) (x4 : Vec F S1x512 .f32) (x5 : Vec F S1x128 .f32) (x6 : Vec F S1x512 .f32) (x7 : Vec F S1x128 .f32) (x8 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (outBlock_cover _ _)

/-! ## Each input buffer holds its block when the body starts -/

/-- An input's staging buffer holds the input's block at every point, whether the pipeline fetched it there or
    not: an unfetched window has not moved, and the body left its block in place at the point before. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
      (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
      (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
      (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
      (fun t => by rw [after_in5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl)
      (fun t => by rw [after_in6]; unfold Dat.blockOf iblk; rw [A_eq]; try rfl) t d).trans
    (by unfold Dat.fetched Dat.blockOf iblk; rw [A_eq]; try rfl)
theorem before_in7 (c : Dev nD) (t : Fin cfg0.N) (d) : (dats m 0 c).before 7 t d = iblk m c 7 t :=
  ((dats m 0 c).before_in_eq_fetched 7 rfl (fun _ => rfl) (fun _ _ _ => rfl)
      (fun t => by rw [after_in7]; unfold Dat.blockOf iblk; rw [A_eq]; try rfl) t d).trans
    (by unfold Dat.fetched Dat.blockOf iblk; rw [A_eq]; try rfl)
theorem before_in8 (c : Dev nD) (t : Fin cfg0.N) (d) : (dats m 0 c).before 8 t d = iblk m c 8 t :=
  ((dats m 0 c).before_in_eq_fetched 8 rfl (fun _ => rfl) (fun _ _ _ => rfl)
      (fun t => by rw [after_in8]; unfold Dat.blockOf iblk; rw [A_eq]; try rfl) t d).trans
    (by unfold Dat.fetched Dat.blockOf iblk; rw [A_eq]; try rfl)

/-! ## The body at a grid point -/

/-- What the body is handed at point `t`: the untouched rest of the core, nothing owed, and each window's current
    staging buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it hands back: the same, each buffer at what `dats` says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets its obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the entry function terminates without a
    fault, every array a window stages ends at what the sixteen points' write-backs make of it, and every other
    buffer outside the region's scope ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In any final state of that run all nineteen argument arrays are as launched. The activations are window 0's
    array, an input, which the region only reads; the other eighteen are staged by no window (the region reads
    results of the host operations computed from them) and no host operation writes an argument. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c)⟩

/-- The frame: every weakly fair execution of the entry function terminates without a fault and leaves all nineteen
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m r h c) (run_main m ρ)

end Cert.KernelIdeal.Entry

end
-- ==== Proof.KDataBits.lean ====
/-
  The arrays as the kernel's one pipelined region finds them. Before it launches the region, the program's
  entry function runs five stretches of host operations (the seasonal operator's Fourier combination and its
  transpose, the three weight matrices rounded and laid side by side, the second layers' row means, the two
  small ENSO networks and their packing into 128 lanes); every buffer the region reads is one of the entry
  function's arguments or a result of these operations. `V m c b` is what buffer `b` of core `c` holds once
  they have all run from the launch memory `m`.
-/
import proofs.«131511_j39754217292306_2_alg».proof.Proof.Gen.Kernel.Launch

noncomputable section

namespace Cert.Kernel.Entry

open Cert.Kernel Cert.Kernel.Gen
open Idealize.ShloMosaic Idealize.ShloMosaic.TcCoe Idealize.SL.Sem

variable {F : FTy → Type} [FloatOps F]

/-- The host operations the entry function runs before the region, stretch by stretch, in program order. -/
abbrev hostStretches : List (List (HloOp τ sig (Elt F))) :=
  [hostOps0, hostOps0_1, hostOps0_2, hostOps0_3, hostOps0_4]

/-- Core `c`'s buffers when the region is entered: the launch memory after every host operation before it. -/
abbrev V (m : (ℓ : Loc nD τ sig) → Buf (Elt F) ℓ) (c : Dev nD) (b : Ref sig .tc) : Buf (Elt F) ((c : Thread nD τ).loc b) :=
  StableHlo.after (List.flatten (hostStretches (F := F))) (fun b => m (c, b)) b

end Cert.Kernel.Entry

end
-- ==== Proof.KBlocksBits.lean ====
/-
  The blocks the kernel's body works on, and what it leaves behind.

  The pipelined region visits sixteen grid points; at point `t` its body sees one block of each of its ten
  windows. Nine are inputs: a 1024-row tile of the activations (window 0), the whole concatenated weight matrix
  [512, 1536] (window 1), five rows of 512 lanes and two rows of 128 lanes that never move (windows 2-7), and the
  matching 1024-row tile of the 128-lane ENSO pack (window 8). The tenth is the output tile [1024, 512].

  `iblk m c w t` is window `w`'s block at point `t`, read off its array as the region finds it.
  The body stores its output tile in two column bands - lanes 0..127 (the seasonal sum plus the ENSO pack) and
  lanes 128..511 (the seasonal sum alone) - which together tile it; `outBlock` is the tile those two stores
  leave, as a function of the nine input blocks alone. `dats` records, per core, the arrays at the region's
  entry and, after the body at each point, every input buffer still at its block and the output buffer at
  `outBlock` of the input blocks.
-/
import proofs.«131511_j39754217292306_2_alg».proof.Proof.KDataBits
import proofs.«131511_j39754217292306_2_alg».proof.Proof.Gen.Kernel.Skeleton
import proofs.«131511_j39754217292306_2_alg».proof.Proof.Gen.Kernel.Points
import Idealize.ShloMosaic.Lib.Pipeline.FrameBody

set_option maxRecDepth 16384

noncomputable section

namespace Cert.Kernel.Entry

open Cert.Kernel Cert.Kernel.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-! ## A window's block at a grid point -/

/-- Window `w`'s block at point `t`: the part of its array (as the region finds it, `V`) that the pipeline
    stages for the body there. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes through -/

/-- The whole activation tile [1024, 512]. -/
abbrev rectTile : Rect S1024x512 := Rect.unit (s := S1024x512) ![0, 0] S1024x512.size inb_S1024x512_S1024x512_0_0
/-- The whole concatenated weight matrix [512, 1536]. -/
abbrev rectWeights : Rect S512x1536 := Rect.unit (s := S512x1536) ![0, 0] S512x1536.size inb_S512x1536_S512x1536_0_0
/-- A whole row of 512 lanes (a first-layer bias or a second layer's row mean). -/
abbrev rectRow : Rect S1x512 := Rect.unit (s := S1x512) ![0, 0] S1x512.size inb_S1x512_S1x512_0_0
/-- The first lane of a 128-lane row (a second-layer bias mean, broadcast over the lanes by the host). -/
abbrev rectLane0 : Rect S1x128 := Rect.unit (s := S1x128) ![0, 0] S1x1.size inb_S1x128_S1x1_0_0
/-- The whole ENSO tile [1024, 128]. -/
abbrev rectEnso : Rect S1024x128 := Rect.unit (s := S1024x128) ![0, 0] S1024x128.size inb_S1024x128_S1024x128_0_0
/-- Lanes 0..127 of the output tile: where the ENSO pack is added. -/
abbrev rectOutLo : Rect S1024x512 := Rect.unit (s := S1024x512) ![0, 0] S1024x128.size inb_S1024x512_S1024x128_0_0
/-- Lanes 128..511 of the output tile. -/
abbrev rectOutHi : Rect S1024x512 := Rect.unit (s := S1024x512) ![0, 128] S1024x384.size inb_S1024x512_S1024x384_0_128

/-! ## What the body leaves in the output tile -/

/-- The output tile after the body, from the nine input blocks: the seasonal sum (linear part, the two
    mean-pooled hidden layers and their bias means, all functions of the activation tile `x0`, the weights `x1`
    and the rows `x2` … `x7`) stored in two column bands, the lower band with the ENSO tile `x8` added. The bands
    are listed last store first. -/
def outBlock (x0 : Vec F S1024x512 .f32) (x1 : Vec F S512x1536 .bf16) (x2 : Vec F S1x512 .f32) (x3 : Vec F S1x512 .f32)
    (x4 : Vec F S1x512 .f32) (x5 : Vec F S1x128 .f32) (x6 : Vec F S1x512 .f32) (x7 : Vec F S1x128 .f32)
    (x8 : Vec F S1024x128 .f32) : Vec F S1024x512 .f32 :=
  View.canon
    [⟨rectOutHi, k0_pay3 (k0_pay5 (View.ld x0 rectTile) (View.ld x1 rectWeights))
        (k0_pay6 (View.ld x0 rectTile) (View.ld x1 rectWeights) (View.ld x2 rectRow) (View.ld x4 rectRow) (View.ld x5 rectLane0))
        (k0_pay7 (View.ld x0 rectTile) (View.ld x1 rectWeights) (View.ld x3 rectRow) (View.ld x6 rectRow))
        (k0_pay8 (View.ld x7 rectLane0))⟩,
     ⟨rectOutLo, k0_pay2 (k0_pay5 (View.ld x0 rectTile) (View.ld x1 rectWeights))
        (k0_pay6 (View.ld x0 rectTile) (View.ld x1 rectWeights) (View.ld x2 rectRow) (View.ld x4 rectRow) (View.ld x5 rectLane0))
        (k0_pay7 (View.ld x0 rectTile) (View.ld x1 rectWeights) (View.ld x3 rectRow) (View.ld x6 rectRow))
        (k0_pay8 (View.ld x7 rectLane0))
        (View.ld x8 rectEnso)⟩]

/-! ## What is claimed of the pipeline, core by core -/

/-- What is claimed of the one pipeline on core `c`: the arrays as the region finds them; after the body at point
    `t` each input buffer still at its block and the output buffer at `outBlock` of the input blocks; the
    invariant the untouched rest of the core (its scratch and generator register); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlock (iblk m c 0 t) (iblk m c 1 t) (iblk m c 2 t) (iblk m c 3 t) (iblk m c 4 t)
        (iblk m c 5 t) (iblk m c 6 t) (iblk m c 7 t) (iblk m c 8 t)
  Φ _ := Pipeline.ΦA spec0 c
  q _ := fullShare
  owed _ := 0

/-- The arrays `dats` names are the region-entry contents. -/
theorem A_eq (c : Dev nD) (w : Fin cfg0.W) : (dats m 0 c).A w = V m c (Pipeline.arrRef spec0 w) := by
  dsimp only [dats]

/-- The body leaves every input buffer at its block. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]

/-- The body leaves the output buffer at `outBlock` of the nine input blocks. -/
theorem after_out (c : Dev nD) (t : Fin cfg0.N) :
    (dats m 0 c).after 9 t = outBlock (iblk m c 0 t) (iblk m c 1 t) (iblk m c 2 t) (iblk m c 3 t) (iblk m c 4 t)
      (iblk m c 5 t) (iblk m c 6 t) (iblk m c 7 t) (iblk m c 8 t) := by dsimp only [dats]

end Cert.Kernel.Entry

end
-- ==== Proof.KFrameBits.lean ====
/-
  The frame of the kernel program: every weakly fair execution of the entry function terminates without a fault and
  leaves its nineteen argument arrays as launched.

  The entry function runs five stretches of host operations and then one pipelined region of sixteen grid points.
  The host operations only write their own results, never an argument. The region stages ten windows; at each
  point its body loads the nine input blocks, computes, and stores the output tile in two column bands that
  together tile it, so after the body the output buffer holds `outBlock` of the input blocks and every input buffer
  still holds its block. Of the arguments only the activations are staged by a window, and that window is an input:
  the region reads it and never writes it back. The other eighteen arguments are touched by nothing at all.
-/
import proofs.«131511_j39754217292306_2_alg».proof.Proof.KBlocksBits
import Idealize.ShloMosaic.Lib.Pipeline.FrameBody
import Idealize.ShloMosaic.Lib.Ring
import Idealize.ShloMosaic.Lib.Tactic

set_option maxRecDepth 16384

noncomputable section

namespace Cert.Kernel.Entry

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The entry function up to the region

The five stretches of host operations allocate nothing and each operation writes exactly one buffer, its result;
none of these results is an argument of the entry function. -/

/-- No operation of this stretch (the seasonal operator, the weight matrix, the row means and the ENSO features) allocates a buffer. -/
theorem hostOps0_fresh : (hostOps0 : List (HloOp τ sig (Elt F))).Forall fun op => op.fresh = ∅ := by
  simp only [List.Forall]; repeat' constructor
/-- No operation of this stretch (the first ENSO network's rectifier) allocates a buffer. -/
theorem hostOps0_1_fresh : (hostOps0_1 : List (HloOp τ sig (Elt F))).Forall fun op => op.fresh = ∅ := by
  simp only [List.Forall]; repeat' constructor
/-- No operation of this stretch (the first ENSO network's output and the second's hidden layer) allocates a buffer. -/
theorem hostOps0_2_fresh : (hostOps0_2 : List (HloOp τ sig (Elt F))).Forall fun op => op.fresh = ∅ := by
  simp only [List.Forall]; repeat' constructor
/-- No operation of this stretch (the second ENSO network's rectifier) allocates a buffer. -/
theorem hostOps0_3_fresh : (hostOps0_3 : List (HloOp τ sig (Elt F))).Forall fun op => op.fresh = ∅ := by
  simp only [List.Forall]; repeat' constructor
/-- No operation of this stretch (the second ENSO network's output and the 128-lane pack) allocates a buffer. -/
theorem hostOps0_4_fresh : (hostOps0_4 : List (HloOp τ sig (Elt F))).Forall fun op => op.fresh = ∅ := by
  simp only [List.Forall]; repeat' constructor

/-- Every buffer some host operation before the region writes: the operations' results, in program order. -/
abbrev hostResults : List (Ref sig .tc) :=
  [main_v0, main_v1, main_v2, main_v3, main_v4, main_cst, main_v5, main_v6, main_v7, main_v8, main_v9, main_v10, main_v11, main_cst_0, main_v12, main_v13, main_v14, main_v15, main_v16, main_v17, main_v18, main_cst_1, main_v19, main_v20, main_v21, main_v22, main_v23, main_v24, main_v25, main_cst_2, main_v26, main_v27, main_v28, main_v29, main_v30, main_v31, main_v32, main_v33, main_v34, main_v35, main_v36, main_v37, main_cst_3, main_v38, main_cst_4, main_v39, main_v40, main_v41, main_cst_5, main_v42, main_cst_6, main_v43, main_v44, main_v45, main_cst_7, main_v46, main_cst_8, main_v47, main_v48, main_cst_9, main_v49, main_cst_10, main_v50, main_v51, main_v52, main_v53, main_v54, main_v55, main_v56, main_v57, main_v58, main_v59, main_v60, main_v61, main_v62, main_v63, main_v64, main_v65, main_v66, main_v67, main_call0_cst, main_call0_v0, main_v68, main_v69, main_v70, main_v71, main_v72, main_v73, main_v74, main_v75, main_v76, main_call1_cst, main_call1_v0, main_v77, main_v78, main_v79, main_v80, main_v81, main_cst_11, main_v82, main_v83]

/-- Each operation of this stretch writes one of `hostResults`. -/
theorem hostOps0_writes : (hostOps0 : List (HloOp τ sig (Elt F))).Forall fun op => op.writes ⊆ (hostResults.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_1_writes : (hostOps0_1 : List (HloOp τ sig (Elt F))).Forall fun op => op.writes ⊆ (hostResults.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_2_writes : (hostOps0_2 : List (HloOp τ sig (Elt F))).Forall fun op => op.writes ⊆ (hostResults.map (Proc.devRef (τ := τ) .tc)).toFinset := by
  simp only [List.Forall]
  refine ⟨?_, ?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_3_writes : (hostOps0_3 : List (HloOp τ sig (Elt F))).Forall fun op => op.writes ⊆ (hostResults.map (Proc.devRef (τ := τ) .tc)).toFinset := by
  simp only [List.Forall]
  refine ⟨?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Each operation of this stretch writes one of `hostResults`. -/
theorem hostOps0_4_writes : (hostOps0_4 : List (HloOp τ sig (Elt F))).Forall fun op => op.writes ⊆ (hostResults.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- So does every operation of the five stretches taken together. -/
theorem host_writes : (List.flatten (hostStretches (F := F))).Forall fun op => op.writes ⊆ (hostResults.map (Proc.devRef (τ := τ) .tc)).toFinset := by
  simp only [hostStretches, List.flatten_cons, List.flatten_nil, List.append_nil, List.forall_append]
  exact ⟨hostOps0_writes, hostOps0_1_writes, hostOps0_2_writes, hostOps0_3_writes, hostOps0_4_writes⟩

/-- The entry function is its five stretches of host operations followed by the region, and the region finds each
    buffer at what the stretches leave there. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostStretches
    (by simp only [hostStretches, List.Forall]; exact ⟨hostOps0_sub, hostOps0_1_sub, hostOps0_2_sub, hostOps0_3_sub, hostOps0_4_sub⟩)
    (by simp only [hostStretches, List.Forall]; exact ⟨hostOps0_fresh, hostOps0_1_fresh, hostOps0_2_fresh, hostOps0_3_fresh, hostOps0_4_fresh⟩) main_chain

/-! ## The arguments as the region finds them

No host operation writes an argument of the entry function, so the region finds each as launched. -/

theorem V_main_arg0 (c : Dev nD) : V m c main_arg0 = m ((c : Thread nD τ).loc main_arg0) :=
  StableHlo.after_of_writes_sub (List.flatten hostStretches) _ host_writes (by decide)
theorem V_main_arg1 (c : Dev nD) : V m c main_arg1 = m ((c : Thread nD τ).loc main_arg1) :=
  StableHlo.after_of_writes_sub (List.flatten hostStretches) _ host_writes (by decide)
theorem V_main_arg2 (c : Dev nD) : V m c main_arg2 = m ((c : Thread nD τ).loc main_arg2) :=
  StableHlo.after_of_writes_sub (List.flatten hostStretches) _ host_writes (by decide)
theorem V_main_arg3 (c : Dev nD) : V m c main_arg3 = m ((c : Thread nD τ).loc main_arg3) :=
  StableHlo.after_of_writes_sub (List.flatten hostStretches) _ host_writes (by decide)
theorem V_main_arg4 (c : Dev nD) : V m c main_arg4 = m ((c : Thread nD τ).loc main_arg4) :=
  StableHlo.after_of_writes_sub (List.flatten hostStretches) _ host_writes (by decide)
theorem V_main_arg5 (c : Dev nD) : V m c main_arg5 = m ((c : Thread nD τ).loc main_arg5) :=
  StableHlo.after_of_writes_sub (List.flatten hostStretches) _ host_writes (by decide)
theorem V_main_arg6 (c : Dev nD) : V m c main_arg6 = m ((c : Thread nD τ).loc main_arg6) :=
  StableHlo.after_of_writes_sub (List.flatten hostStretches) _ host_writes (by decide)
theorem V_main_arg7 (c : Dev nD) : V m c main_arg7 = m ((c : Thread nD τ).loc main_arg7) :=
  StableHlo.after_of_writes_sub (List.flatten hostStretches) _ host_writes (by decide)
theorem V_main_arg8 (c : Dev nD) : V m c main_arg8 = m ((c : Thread nD τ).loc main_arg8) :=
  StableHlo.after_of_writes_sub (List.flatten hostStretches) _ host_writes (by decide)
theorem V_main_arg9 (c : Dev nD) : V m c main_arg9 = m ((c : Thread nD τ).loc main_arg9) :=
  StableHlo.after_of_writes_sub (List.flatten hostStretches) _ host_writes (by decide)
theorem V_main_arg10 (c : Dev nD) : V m c main_arg10 = m ((c : Thread nD τ).loc main_arg10) :=
  StableHlo.after_of_writes_sub (List.flatten hostStretches) _ host_writes (by decide)
theorem V_main_arg11 (c : Dev nD) : V m c main_arg11 = m ((c : Thread nD τ).loc main_arg11) :=
  StableHlo.after_of_writes_sub (List.flatten hostStretches) _ host_writes (by decide)
theorem V_main_arg12 (c : Dev nD) : V m c main_arg12 = m ((c : Thread nD τ).loc main_arg12) :=
  StableHlo.after_of_writes_sub (List.flatten hostStretches) _ host_writes (by decide)
theorem V_main_arg13 (c : Dev nD) : V m c main_arg13 = m ((c : Thread nD τ).loc main_arg13) :=
  StableHlo.after_of_writes_sub (List.flatten hostStretches) _ host_writes (by decide)
theorem V_main_arg14 (c : Dev nD) : V m c main_arg14 = m ((c : Thread nD τ).loc main_arg14) :=
  StableHlo.after_of_writes_sub (List.flatten hostStretches) _ host_writes (by decide)
theorem V_main_arg15 (c : Dev nD) : V m c main_arg15 = m ((c : Thread nD τ).loc main_arg15) :=
  StableHlo.after_of_writes_sub (List.flatten hostStretches) _ host_writes (by decide)
theorem V_main_arg16 (c : Dev nD) : V m c main_arg16 = m ((c : Thread nD τ).loc main_arg16) :=
  StableHlo.after_of_writes_sub (List.flatten hostStretches) _ host_writes (by decide)
theorem V_main_arg17 (c : Dev nD) : V m c main_arg17 = m ((c : Thread nD τ).loc main_arg17) :=
  StableHlo.after_of_writes_sub (List.flatten hostStretches) _ host_writes (by decide)
theorem V_main_arg18 (c : Dev nD) : V m c main_arg18 = m ((c : Thread nD τ).loc main_arg18) :=
  StableHlo.after_of_writes_sub (List.flatten hostStretches) _ host_writes (by decide)

/-! ## The two stores tile the output tile -/

/-- Cut into bands of 128 lanes, the two stored column bands are the tile's four 128-lane bands: every entry of the
    output tile lies in one of the two stores, whatever they store. -/
theorem outBlock_cover (pHi : Vec F S1024x384 .f32) (pLo : Vec F S1024x128 .f32) (y : S1024x512.Idx) :
    ∃ pc ∈ ([⟨rectOutHi, pHi⟩, ⟨rectOutLo, pLo⟩] : List (View.Piece (Elt F) S1024x512 .f32)), y ∈ pc.1.set :=
  View.cover_of_tiledBy [⟨rectOutHi, pHi⟩, ⟨rectOutLo, pLo⟩] ![1024, 128] (by sl_kernel_rfl) y

/-! ## The body's triple -/

set_option maxHeartbeats 1000000 in
/-- The kernel body on whole staging buffers - the nine inputs' holding `x0` … `x8`, the output's holding anything -
    runs without a fault to a state where the inputs' buffers hold what they held and the output's holds
    `outBlock x0 … x8`: it loads the inputs, loads the output buffer twice without using what it reads, and its two
    stores cover the output tile. -/
theorem sound_kernel (c : Dev nD) (E : Set ℕ) (i : grid0.Coords) (arg1 : Memref sig .tc .vmem S1024x512 .f32) (harg1 : arg1.IsWhole) (arg2 : Memref sig .tc .vmem S512x1536 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x128 .f32) (harg6 : arg6.IsWhole) (arg7 : Memref sig .tc .vmem S1x512 .f32) (harg7 : arg7.IsWhole) (arg8 : Memref sig .tc .vmem S1x128 .f32) (harg8 : arg8.IsWhole) (arg9 : Memref sig .tc .vmem S1024x128 .f32) (harg9 : arg9.IsWhole) (arg10 : Memref sig .tc .vmem S1024x512 .f32) (harg10 : arg10.IsWhole)
    (x0 : Vec F S1024x512 .f32) (x1 : Vec F S512x1536 .bf16) (x2 : Vec F S1x512 .f32) (x3 : Vec F S1x512 .f32) (x4 : Vec F S1x512 .f32) (x5 : Vec F S1x128 .f32) (x6 : Vec F S1x512 .f32) (x7 : Vec F S1x128 .f32) (x8 : Vec F S1024x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outBlock x0 x1 x2 x3 x4 x5 x6 x7 x8)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10) K := by
  simp only [cc0__fused_kernel_eq_skeleton]; unfold cc0__fused_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (outBlock_cover _ _)

/-! ## Each input buffer holds its block when the body starts -/

/-- An input's staging buffer holds the input's block at every point, whether the pipeline fetched it there or
    not: an unfetched window has not moved, and the body left its block in place at the point before. -/
theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq]; try rfl) t d).trans
    (by unfold Dat.fetched Dat.blockOf iblk; rw [A_eq]; try rfl)
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq]; try rfl) t d).trans
    (by unfold Dat.fetched Dat.blockOf iblk; rw [A_eq]; try rfl)
theorem before_in2 (c : Dev nD) (t : Fin cfg0.N) (d) : (dats m 0 c).before 2 t d = iblk m c 2 t :=
  ((dats m 0 c).before_in_eq_fetched 2 rfl (fun _ => rfl) (fun _ _ _ => rfl)
      (fun t => by rw [after_in2]; unfold Dat.blockOf iblk; rw [A_eq]; try rfl) t d).trans
    (by unfold Dat.fetched Dat.blockOf iblk; rw [A_eq]; try rfl)
theorem before_in3 (c : Dev nD) (t : Fin cfg0.N) (d) : (dats m 0 c).before 3 t d = iblk m c 3 t :=
  ((dats m 0 c).before_in_eq_fetched 3 rfl (fun _ => rfl) (fun _ _ _ => rfl)
      (fun t => by rw [after_in3]; unfold Dat.blockOf iblk; rw [A_eq]; try rfl) t d).trans
    (by unfold Dat.fetched Dat.blockOf iblk; rw [A_eq]; try rfl)
theorem before_in4 (c : Dev nD) (t : Fin cfg0.N) (d) : (dats m 0 c).before 4 t d = iblk m c 4 t :=
  ((dats m 0 c).before_in_eq_fetched 4 rfl (fun _ => rfl) (fun _ _ _ => rfl)
      (fun t => by rw [after_in4]; unfold Dat.blockOf iblk; rw [A_eq]; try rfl) t d).trans
    (by unfold Dat.fetched Dat.blockOf iblk; rw [A_eq]; try rfl)
theorem before_in5 (c : Dev nD) (t : Fin cfg0.N) (d) : (dats m 0 c).before 5 t d = iblk m c 5 t :=
  ((dats m 0 c).before_in_eq_fetched 5 rfl (fun _ => rfl) (fun _ _ _ => rfl)
      (fun t => by rw [after_in5]; unfold Dat.blockOf iblk; rw [A_eq]; try rfl) t d).trans
    (by unfold Dat.fetched Dat.blockOf iblk; rw [A_eq]; try rfl)
theorem before_in6 (c : Dev nD) (t : Fin cfg0.N) (d) : (dats m 0 c).before 6 t d = iblk m c 6 t :=
  ((dats m 0 c).before_in_eq_fetched 6 rfl (fun _ => rfl) (fun _ _ _ => rfl)
      (fun t => by rw [after_in6]; unfold Dat.blockOf iblk; rw [A_eq]; try rfl) t d).trans
    (by unfold Dat.fetched Dat.blockOf iblk; rw [A_eq]; try rfl)
theorem before_in7 (c : Dev nD) (t : Fin cfg0.N) (d) : (dats m 0 c).before 7 t d = iblk m c 7 t :=
  ((dats m 0 c).before_in_eq_fetched 7 rfl (fun _ => rfl) (fun _ _ _ => rfl)
      (fun t => by rw [after_in7]; unfold Dat.blockOf iblk; rw [A_eq]; try rfl) t d).trans
    (by unfold Dat.fetched Dat.blockOf iblk; rw [A_eq]; try rfl)
theorem before_in8 (c : Dev nD) (t : Fin cfg0.N) (d) : (dats m 0 c).before 8 t d = iblk m c 8 t :=
  ((dats m 0 c).before_in_eq_fetched 8 rfl (fun _ => rfl) (fun _ _ _ => rfl)
      (fun t => by rw [after_in8]; unfold Dat.blockOf iblk; rw [A_eq]; try rfl) t d).trans
    (by unfold Dat.fetched Dat.blockOf iblk; rw [A_eq]; try rfl)

/-! ## The body at a grid point -/

/-- What the body is handed at point `t`: the untouched rest of the core, nothing owed, and each window's current
    staging buffer at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it hands back: the same, each buffer at what `dats` says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at any point: the inputs' buffers hold their blocks, so the body's triple applies; the rest of the
    core passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body meets its obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the entry function terminates without a
    fault, every array a window stages ends at what the sixteen points' write-backs make of it, and every other
    buffer outside the region's scope ends as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- In any final state of that run all nineteen argument arrays are as launched. The activations are window 0's
    array, an input, which the region only reads; the other eighteen are staged by no window (the region reads
    results of the host operations computed from them) and no host operation writes an argument. -/
theorem args_kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c)⟩

/-- The frame: every weakly fair execution of the entry function terminates without a fault and leaves all nineteen
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m r h c) (run_main m ρ)

end Cert.Kernel.Entry

end
-- ==== Proof.KCover.lean ====
/-
  Where the blocks sit. The grid has 16 points; at point t the activation tile, the ENSO tile and the output tile
  are rows 1024·t … 1024·t + 1023 of their arrays (all columns), and every other operand is its whole array at
  every point. So an entry (r, j) of a moving block is entry (1024·t + r, j) of the array, the output's blocks
  are disjoint and together cover all 16384 rows.
-/
import proofs.«131511_j39754217292306_2_alg».proof.Proof.KBlocks
import Idealize.ShloMosaic.Lib.Pipeline.Value
import Idealize.ShloMosaic.Lib.ValueIdx

noncomputable section

namespace Cert.KernelIdeal.Whole

open Cert.KernelIdeal Cert.KernelIdeal.Gen Cert.KernelIdeal.Entry
open Idealize.ShloMosaic Idealize.ShloMosaic.TcCoe Idealize.ShloMosaic.ValueIdx
open Idealize.SL Idealize.SL.Sem
open Idealize.ShloMosaic.Pipeline (Dat Cfg Window)

/-- The block index of every window at every grid point: the three moving windows follow the point on the row
    axis, every other window stays at block (0, 0). Decided over the 16 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- An index of the output array is in point t's block iff its row is among the block's 1024 rows. -/
theorem mem_out_blk (t : Fin cfg0.N) (i : S16384x512.Idx) :
    i ∈ ((cfg0.win 9).blk t).view.set ↔ ∀ a : Fin 2, win0_9.index t a * S1024x512.size a ≤ (i a).val ∧ (i a).val < win0_9.index t a * S1024x512.size a + S1024x512.size a := by
  show i ∈ ((View.whole main_v84).slice (win0_9.rect t)).set ↔ _
  rw [View.set_slice_whole, Rect.mem_set_unit]
  exact Iff.rfl

/-- Every index of the output array is in the block of the point its row falls in. -/
theorem out_cover (i : S16384x512.Idx) :
    ∃ t : Fin cfg0.N, (cfg0.win 9).flush t = true ∧ i ∈ ((cfg0.win 9).blk t).view.set := by
  have hi0 : (i 0).val < 16384 := (i 0).isLt
  have hi1 : (i 1).val < 512 := (i 1).isLt
  have hN : cfg0.N = 16 := N_0
  let t : Fin cfg0.N := ⟨(i 0).val / 1024, by rw [hN]; omega⟩
  obtain ⟨-, -, -, -, -, -, -, -, -, -, -, -, -, -, -, -, -, -, e0, e1⟩ := idx_facts t
  have ht : t.val = (i 0).val / 1024 := rfl
  refine ⟨t, flush0_9 t, ?_⟩
  rw [mem_out_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 512 ≤ (i 1).val ∧ (i 1).val < win0_9.index t (1 : Fin 2) * 512 + 512; omega

end Cert.KernelIdeal.Whole

end
-- ==== Proof.KBlockReads.lean ====
/-
  What each input block holds, entry by entry.

  At grid point t the activation tile and the ENSO tile are rows 1024·t … 1024·t + 1023 of their arrays, so their
  entry (r, ·) is the array's entry (1024·t + r, ·); the weight matrix, the four rows of 512 lanes and the two rows
  of 128 lanes are whole arrays at every point, so a block's entry is the array's entry at the same index. The
  arrays are the ones the region finds on entry.
-/
import proofs.«131511_j39754217292306_2_alg».proof.Proof.KCover

set_option maxRecDepth 16384

noncomputable section

namespace Cert.KernelIdeal.Whole

open Cert.KernelIdeal Cert.KernelIdeal.Gen Cert.KernelIdeal.Entry
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The array row that row `r` of point `t`'s 1024-row tile is. -/
def rowOf (t : Fin cfg0.N) (r : Fin 1024) : Fin 16384 :=
  ⟨1024 * t.val + r.val, by have ht := t.isLt; have hN : cfg0.N = 16 := N_0; have hr := r.isLt; omega⟩

/-! ## The two moving tiles -/

/-- The activation tile's entry (r, k) is the batch's entry (1024·t + r, k). -/
theorem blk_x (c : Dev nD) (t : Fin cfg0.N) (r : Fin 1024) (k : Fin 512) :
    iblk m c 0 t (ix2 r k) = V m c main_arg0 (ix2 (rowOf t r) k) := by
  obtain ⟨e0, e1, -⟩ := idx_facts t
  show V m c main_arg0 (((cfg0.win 0).blk t).view.emb (ix2 r k)) = V m c main_arg0 (ix2 (rowOf t r) k)
  refine congrArg (V m c main_arg0) ?_
  funext a
  apply Fin.ext
  match a with
  | ⟨0, _⟩ => show win0_0.index t (0 : Fin 2) * 1024 + 1 * r.val = 1024 * t.val + r.val; omega
  | ⟨1, _⟩ => show win0_0.index t (1 : Fin 2) * 512 + 1 * k.val = k.val; omega

/-- The ENSO tile's entry (r, l) is the 128-lane pack's entry (1024·t + r, l). -/
theorem blk_enso (c : Dev nD) (t : Fin cfg0.N) (r : Fin 1024) (l : Fin 128) :
    iblk m c 8 t (ix2 r l) = V m c main_v83 (ix2 (rowOf t r) l) := by
  obtain ⟨-, -, -, -, -, -, -, -, -, -, -, -, -, -, -, -, e0, e1, -⟩ := idx_facts t
  show V m c main_v83 (((cfg0.win 8).blk t).view.emb (ix2 r l)) = V m c main_v83 (ix2 (rowOf t r) l)
  refine congrArg (V m c main_v83) ?_
  funext a
  apply Fin.ext
  match a with
  | ⟨0, _⟩ => show win0_8.index t (0 : Fin 2) * 1024 + 1 * r.val = 1024 * t.val + r.val; omega
  | ⟨1, _⟩ => show win0_8.index t (1 : Fin 2) * 128 + 1 * l.val = l.val; omega

/-! ## The operands that never move -/

/-- The weight block is the whole concatenated weight matrix [512, 1536]. -/
theorem blk_w (c : Dev nD) (t : Fin cfg0.N) (k : Fin 512) (j : Fin 1536) :
    iblk m c 1 t (ix2 k j) = V m c main_v35 (ix2 k j) := by
  obtain ⟨-, -, e0, e1, -⟩ := idx_facts t
  show V m c main_v35 (((cfg0.win 1).blk t).view.emb (ix2 k j)) = V m c main_v35 (ix2 k j)
  refine congrArg (V m c main_v35) ?_
  funext a
  apply Fin.ext
  match a with
  | ⟨0, _⟩ => show win0_1.index t (0 : Fin 2) * 512 + 1 * k.val = k.val; omega
  | ⟨1, _⟩ => show win0_1.index t (1 : Fin 2) * 1536 + 1 * j.val = j.val; omega

/-- The quadratic block's first-layer bias row. -/
theorem blk_qb1 (c : Dev nD) (t : Fin cfg0.N) (h : Fin 512) :
    iblk m c 2 t (ix2 0 h) = V m c main_v36 (ix2 0 h) := by
  obtain ⟨-, -, -, -, e0, e1, -⟩ := idx_facts t
  show V m c main_v36 (((cfg0.win 2).blk t).view.emb (ix2 0 h)) = V m c main_v36 (ix2 0 h)
  refine congrArg (V m c main_v36) ?_
  funext a
  apply Fin.ext
  match a with
  | ⟨0, _⟩ => show win0_2.index t (0 : Fin 2) * 1 + 1 * 0 = 0; omega
  | ⟨1, _⟩ => show win0_2.index t (1 : Fin 2) * 512 + 1 * h.val = h.val; omega

/-- The cubic block's first-layer bias row. -/
theorem blk_cb1 (c : Dev nD) (t : Fin cfg0.N) (h : Fin 512) :
    iblk m c 3 t (ix2 0 h) = V m c main_v37 (ix2 0 h) := by
  obtain ⟨-, -, -, -, -, -, e0, e1, -⟩ := idx_facts t
  show V m c main_v37 (((cfg0.win 3).blk t).view.emb (ix2 0 h)) = V m c main_v37 (ix2 0 h)
  refine congrArg (V m c main_v37) ?_
  funext a
  apply Fin.ext
  match a with
  | ⟨0, _⟩ => show win0_3.index t (0 : Fin 2) * 1 + 1 * 0 = 0; omega
  | ⟨1, _⟩ => show win0_3.index t (1 : Fin 2) * 512 + 1 * h.val = h.val; omega

/-- The row of the quadratic block's second-layer row means. -/
theorem blk_w2q (c : Dev nD) (t : Fin cfg0.N) (h : Fin 512) :
    iblk m c 4 t (ix2 0 h) = V m c main_v41 (ix2 0 h) := by
  obtain ⟨-, -, -, -, -, -, -, -, e0, e1, -⟩ := idx_facts t
  show V m c main_v41 (((cfg0.win 4).blk t).view.emb (ix2 0 h)) = V m c main_v41 (ix2 0 h)
  refine congrArg (V m c main_v41) ?_
  funext a
  apply Fin.ext
  match a with
  | ⟨0, _⟩ => show win0_4.index t (0 : Fin 2) * 1 + 1 * 0 = 0; omega
  | ⟨1, _⟩ => show win0_4.index t (1 : Fin 2) * 512 + 1 * h.val = h.val; omega

/-- The first lane of the quadratic block's second-layer bias mean. -/
theorem blk_b2q (c : Dev nD) (t : Fin cfg0.N) :
    View.ld (iblk m c 5 t) rectLane0 (ix2 0 0) = V m c main_v48 (ix2 0 0) := by
  obtain ⟨-, -, -, -, -, -, -, -, -, -, e0, e1, -⟩ := idx_facts t
  show V m c main_v48 (((cfg0.win 5).blk t).view.emb (rectLane0.idx (ix2 0 0))) = V m c main_v48 (ix2 0 0)
  refine congrArg (V m c main_v48) ?_
  funext a
  apply Fin.ext
  match a with
  | ⟨0, _⟩ => show win0_5.index t (0 : Fin 2) * 1 + 1 * (0 + 1 * 0) = 0; omega
  | ⟨1, _⟩ => show win0_5.index t (1 : Fin 2) * 128 + 1 * (0 + 1 * 0) = 0; omega

/-- The row of the cubic block's second-layer row means. -/
theorem blk_w2c (c : Dev nD) (t : Fin cfg0.N) (h : Fin 512) :
    iblk m c 6 t (ix2 0 h) = V m c main_v45 (ix2 0 h) := by
  obtain ⟨-, -, -, -, -, -, -, -, -, -, -, -, e0, e1, -⟩ := idx_facts t
  show V m c main_v45 (((cfg0.win 6).blk t).view.emb (ix2 0 h)) = V m c main_v45 (ix2 0 h)
  refine congrArg (V m c main_v45) ?_
  funext a
  apply Fin.ext
  match a with
  | ⟨0, _⟩ => show win0_6.index t (0 : Fin 2) * 1 + 1 * 0 = 0; omega
  | ⟨1, _⟩ => show win0_6.index t (1 : Fin 2) * 512 + 1 * h.val = h.val; omega

/-- The first lane of the cubic block's second-layer bias mean. -/
theorem blk_b2c (c : Dev nD) (t : Fin cfg0.N) :
    View.ld (iblk m c 7 t) rectLane0 (ix2 0 0) = V m c main_v51 (ix2 0 0) := by
  obtain ⟨-, -, -, -, -, -, -, -, -, -, -, -, -, -, e0, e1, -⟩ := idx_facts t
  show V m c main_v51 (((cfg0.win 7).blk t).view.emb (rectLane0.idx (ix2 0 0))) = V m c main_v51 (ix2 0 0)
  refine congrArg (V m c main_v51) ?_
  funext a
  apply Fin.ext
  match a with
  | ⟨0, _⟩ => show win0_7.index t (0 : Fin 2) * 1 + 1 * (0 + 1 * 0) = 0; omega
  | ⟨1, _⟩ => show win0_7.index t (1 : Fin 2) * 128 + 1 * (0 + 1 * 0) = 0; omega

end Cert.KernelIdeal.Whole

end
-- ==== Proof.LibLayoutReads.lean ====
/-
  Layout operations of a host program read at an index written by its coordinates: a broadcast of a scalar, of a
  vector to a column or a row, of a column or a row to a matrix; a vector cast to a one-row matrix; a plain matrix
  product read at (i, j) as the sum over the contracted coordinate; and two scalar facts: the guarded reciprocal
  square root select(x > 0, rsqrt x, 0) is a nonnegative real, and the wrap of a negative index leaves a
  nonnegative 32-bit word alone.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.LayoutReads

open Idealize.ShloMosaic Idealize.ShloMosaic.ValueIdx

variable {α : Type}

/-! ## Broadcasts at an index -/

/-- A broadcast scalar reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector [a] broadcast to a column [a, 1] reads, at (i, u), the vector at i. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) :=
  broadcastInDim_apply _ h x _ (ix1 i) (fun c => by
    have hi := i.isLt
    match c with
    | ⟨0, _⟩ =>
      show i.val = if a = 1 then 0 else i.val
      split <;> omega)

/-- A vector [b] broadcast to a row [1, b] reads, at (u, j), the vector at j. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) :=
  broadcastInDim_apply _ h x _ (ix1 j) (fun c => by
    have hj := j.isLt
    match c with
    | ⟨0, _⟩ =>
      show j.val = if b = 1 then 0 else j.val
      split <;> omega)

/-- A column [a, 1] broadcast to a matrix [a, b] reads, at (i, j), the column at (i, 0). -/
theorem bcast_col_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) :=
  broadcastInDim_apply _ h x _ (ix2 i (0 : Fin 1)) (fun c => by
    have hi := i.isLt
    match c with
    | ⟨0, _⟩ =>
      show i.val = if a = 1 then 0 else i.val
      split <;> omega
    | ⟨1, _⟩ =>
      show 0 = if 1 = 1 then 0 else j.val
      rfl)

/-- A row [1, b] broadcast to a matrix [a, b] reads, at (i, j), the row at (0, j). -/
theorem bcast_row_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) :=
  broadcastInDim_apply _ h x _ (ix2 (0 : Fin 1) j) (fun c => by
    have hj := j.isLt
    match c with
    | ⟨0, _⟩ =>
      show 0 = if 1 = 1 then 0 else i.val
      rfl
    | ⟨1, _⟩ =>
      show j.val = if b = 1 then 0 else j.val
      split <;> omega)

/-- A vector [b] cast to a one-row matrix [1, b] reads, at (u, j), the vector at j. -/
theorem shapeCast_vec_row_apply {b : ℕ} (h : (⟨1, ![b]⟩ : Shape).ShapeCasts ⟨2, ![1, b]⟩)
    (x : (⟨1, ![b]⟩ : Shape).Idx → α) (u : Fin 1) (j : Fin b) : shapeCast ⟨2, ![1, b]⟩ x h (ix2 u j) = x (ix1 j) :=
  shapeCast_a_1a_apply x h u j

/-! ## Two scalar facts -/

/-- The guarded reciprocal square root, select(x > 0, rsqrt x, 0), is a nonnegative real at every extended real x:
    0 off the positive half-line, 0 at the top, and the inverse of the square root at a positive real. -/
theorem dinv_nonneg_real (x : EReal) :
    ∃ r : ℝ, 0 ≤ r ∧ Scalar.select (Ideal.cmp .ogt x 0) (Ideal.rsqrt x) 0 = (r : EReal) := by
  by_cases hx : 0 < x
  · have hc : Ideal.cmp .ogt x 0 = 1#1 := by simp [Ideal.cmp, hx]
    rw [hc, select_one]
    induction x using EReal.rec with
    | bot => exact absurd hx (by simp)
    | top => exact ⟨0, le_rfl, by simp⟩
    | coe r =>
      have hr : 0 < r := by exact_mod_cast hx
      refine ⟨(Real.sqrt r)⁻¹, inv_nonneg.mpr (Real.sqrt_nonneg r), ?_⟩
      rw [Ideal.rsqrt_coe, if_neg (not_lt.mpr hr.le), if_neg hr.ne']
  · have hc : Ideal.cmp .ogt x 0 = 0#1 := by simp [Ideal.cmp, hx]
    rw [hc, select_zero]
    exact ⟨0, le_rfl, by simp⟩

/-- A 32-bit word that reads, signed, as nonnegative is left alone by the wrap of negative indices. -/
theorem wrap_of_nonneg (v : BitVec 32) (h0 : 0 ≤ v.toInt) :
    Scalar.select (IntOp.cmpi .slt v 0#32) (IntOp.addi v 100000#32) v = v := by
  have hs : v.slt 0#32 = false := by
    unfold BitVec.slt
    simp
    exact h0
  have hc : IntOp.cmpi .slt v 0#32 = 0#1 := by
    show BitVec.ofBool (v.slt 0#32) = 0#1
    rw [hs]; rfl
  rw [hc, select_zero]

/-! ## A plain matrix product at an index -/

/-- With no batch axis and one non-contracting axis on the left, that axis reads the result index's first coordinate. -/
theorem lhsIdx_val_of_single_non {sl sr so : Shape} (d : DotDims sl sr so) {a : Fin sl.rank}
    (hb : d.lhsBatch = []) (hn : d.lhsNonContracting = [a]) (j : so.Idx) (k : d.contr.Idx) (h0 : 0 < so.rank) :
    (d.lhsIdx j k a).val = (j ⟨0, h0⟩).val := by
  have hmem : a ∈ d.lhsNonContracting := by rw [hn]; exact List.mem_singleton.mpr rfl
  unfold DotDims.lhsIdx
  rw [dif_neg (by rw [hb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis, one non-contracting axis on the left and one on the right, the right one reads the result
    index's second coordinate. -/
theorem rhsIdx_val_of_single_non {sl sr so : Shape} (d : DotDims sl sr so) {al : Fin sl.rank} {a : Fin sr.rank}
    (hlb : d.lhsBatch = []) (hrb : d.rhsBatch = []) (hln : d.lhsNonContracting = [al]) (hn : d.rhsNonContracting = [a])
    (j : so.Idx) (k : d.contr.Idx) (h1 : 1 < so.rank) :
    (d.rhsIdx j k a).val = (j ⟨1, h1⟩).val := by
  have hmem : a ∈ d.rhsNonContracting := by rw [hn]; exact List.mem_singleton.mpr rfl
  unfold DotDims.rhsIdx
  rw [dif_neg (by rw [hrb]; exact List.not_mem_nil), dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

/-- A plain matrix product [n, kk] x [kk, p] on the host, at the exact values, read at (i, j): the sum over the
    contracted coordinate k of lhs (i, k) * rhs (k, j). -/
theorem dotGeneral_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    Host.dotGeneral (F := Ideal) d prec lhs rhs (ix2 i j) = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  simp only [Host.dotGeneral]
  rw [Ideal.dotGeneral_apply]
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

end Idealize.ShloMosaic.LayoutReads

end
-- ==== Proof.LibColumn.lean ====
/-
  Two layout operations read at an index written by coordinates, for the COLUMN shape `[a, 1]`: the shape a
  reduction along the last axis of an `[a, b]` matrix passes through when its result is set back beside the matrix
  (a row statistic kept as a column and repeated along the row).
  • a vector `[a]` viewed as the column `[a, 1]` reads, at `(i, u)`, the vector at `i`;
  • a column `[a, 1]` repeated along its unit axis to `[a, b]` reads, at `(i, j)`, the column at `(i, 0)`.
  Both are the general "read at an index" lemmas of a shape cast and of a broadcast with the row-major position,
  respectively the per-axis coordinates, worked out at these two ranks.
-/
import Idealize.ShloMosaic.Lib.Pipeline.Value
import Idealize.ShloMosaic.Lib.ValueIdx

namespace Cert.Column

open Idealize.ShloMosaic Idealize.ShloMosaic.ValueIdx

variable {α : Type}

/-- An `[a]` vector cast to the column `[a, 1]` reads, at `(i, u)`, the vector at `i`, whatever the unit
    coordinate `u`: the row-major position of `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated along its unit axis to `[a, b]` reads, at `(i, j)`, the column's entry of row `i`:
    on the first axis the coordinate is kept (or is `0` anyway when `a = 1`), on the unit axis it is `0`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Column
-- ==== Proof.Spec.lean ====
/-
  The mathematics both programs compute, over the extended reals.

  For a batch row `b` and a state component `i` the result is the sum of
    • a linear term: row `b` of `x` against row `i` of the seasonal operator `L`;
    • two scalars, one per graph block (the same for every `i`): the mean over the output features of a
      two-layer block, `relu (x W₁ + b₁) W₂ + b₂`;
    • an ENSO correction, present in components 0 and 1 only.
  The two programs differ in WHEN the mean of a block is taken. The reference multiplies by `W₂`, adds `b₂` and
  then averages the 512 outputs (`meanAfter`); the kernel averages the rows of `W₂` and the entries of `b₂` first
  and contracts the hidden activations against those averages (`meanBefore`). Over the reals the two are one
  number, because a finite sum commutes with a product by a constant and with a division by 512; over the
  extended reals that needs every number involved to be finite, which is what the precondition provides.
  The linear term and the ENSO correction are the same expression on both sides, and are carried as given
  arrays (`L`, `cT`, `cH`): nothing here depends on how they were computed.
-/
import Idealize.ShloMosaic.PureOps.Ideal
import Idealize.ShloMosaic.Lib.ValueIdx

noncomputable section

namespace Cert.Seasonal

open Idealize.ShloMosaic Idealize.ShloMosaic.ValueIdx

/-- A matrix and a vector of extended reals, indexed the way the programs' arrays are. -/
abbrev Mat (a b : Nat) := (⟨2, ![a, b]⟩ : Shape).Idx → EReal
abbrev Vct (a : Nat) := (⟨1, ![a]⟩ : Shape).Idx → EReal

/-- The two float constants either program spells: zero and 512. -/
def z32 : EReal := Ideal.ofBits .f32 0x00000000#32
def n512 : EReal := Ideal.ofBits .f32 0x44000000#32

/-- The linear term: row `b` of `x` against row `i` of the operator. -/
def lin (x : Mat 16384 512) (L : Mat 512 512) (b : Fin 16384) (i : Fin 512) : EReal :=
  ∑ k : Fin 512, x (ix2 b k) * L (ix2 i k)

/-- Hidden activation `h` of a graph block on batch row `b`. -/
def hid (x : Mat 16384 512) (W1 : Mat 512 512) (b1 : Vct 512) (b : Fin 16384) (h : Fin 512) : EReal :=
  max ((∑ k : Fin 512, x (ix2 b k) * W1 (ix2 k h)) + b1 (ix1 h)) z32

/-- The block's mean, taken after the second layer (the reference). -/
def meanAfter (x : Mat 16384 512) (W1 : Mat 512 512) (b1 : Vct 512) (W2 : Mat 512 512) (b2 : Vct 512) (b : Fin 16384) : EReal :=
  Ideal.div (z32 + ∑ d : Fin 512, ((∑ h : Fin 512, hid x W1 b1 b h * W2 (ix2 h d)) + b2 (ix1 d))) n512

/-- The block's mean, with the second layer averaged first (the kernel). -/
def meanBefore (x : Mat 16384 512) (W1 : Mat 512 512) (b1 : Vct 512) (W2 : Mat 512 512) (b2 : Vct 512) (b : Fin 16384) : EReal :=
  (∑ h : Fin 512, hid x W1 b1 b h * Ideal.div (z32 + ∑ d : Fin 512, W2 (ix2 h d)) n512)
    + Ideal.div (z32 + ∑ d : Fin 512, b2 (ix1 d)) n512

/-- The ENSO correction at component `i`: the temperature network's output in component 0, the thermocline
    network's in component 1, zero elsewhere. -/
def enso (cT cH : Mat 16384 1) (b : Fin 16384) (i : Fin 512) : EReal :=
  if i.val = 0 then cT (ix2 b 0) else if i.val = 1 then cH (ix2 b 0) else z32

/-- What the reference returns at `(b, i)`. -/
def refOut (x : Mat 16384 512) (L : Mat 512 512) (qW1 : Mat 512 512) (qb1 : Vct 512) (qW2 : Mat 512 512) (qb2 : Vct 512)
    (cW1 : Mat 512 512) (cb1 : Vct 512) (cW2 : Mat 512 512) (cb2 : Vct 512) (cT cH : Mat 16384 1) (b : Fin 16384) (i : Fin 512) : EReal :=
  lin x L b i + ((meanAfter x qW1 qb1 qW2 qb2 b + meanAfter x cW1 cb1 cW2 cb2 b) + enso cT cH b i)

/-- What the kernel writes at `(b, i)`: the correction is added in the first 128 lanes only (it is zero in the rest). -/
def kerOut (x : Mat 16384 512) (L : Mat 512 512) (qW1 : Mat 512 512) (qb1 : Vct 512) (qW2 : Mat 512 512) (qb2 : Vct 512)
    (cW1 : Mat 512 512) (cb1 : Vct 512) (cW2 : Mat 512 512) (cb2 : Vct 512) (cT cH : Mat 16384 1) (b : Fin 16384) (i : Fin 512) : EReal :=
  if i.val < 128 then ((lin x L b i + meanBefore x qW1 qb1 qW2 qb2 b) + meanBefore x cW1 cb1 cW2 cb2 b) + enso cT cH b i
  else (lin x L b i + meanBefore x qW1 qb1 qW2 qb2 b) + meanBefore x cW1 cb1 cW2 cb2 b

end Cert.Seasonal

end
-- ==== Proof.KPayload.lean ====
/-
  The kernel body's arithmetic, read entry by entry at the exact values. For one tile of 1024 batch rows the body
  forms ONE product of the tile's rows with the matrix [Lᵀ | W₁(quad) | W₁(cubic)] of 1536 columns and cuts it in
  three: columns 0..511 are the linear term, columns 512..1023 and 1024..1535 the two blocks' hidden
  pre-activations. Each block then contributes one number per row: the sum over the hidden units of
  relu(pre-activation + bias) times the averaged second-layer weight, plus the averaged second-layer bias. The
  stored value at row r, column i is linear(r, i) plus those two numbers, plus the ENSO pack's entry in the first
  128 columns.
-/
import proofs.«131511_j39754217292306_2_alg».proof.Proof.Gen.KernelIdeal.Skeleton
import proofs.«131511_j39754217292306_2_alg».proof.Proof.LibLayoutReads
import proofs.«131511_j39754217292306_2_alg».proof.Proof.LibColumn
import proofs.«131511_j39754217292306_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Idealize.ShloMosaic.LayoutReads

/-- A plain matrix product [n, kk] x [kk, p] on the matrix unit into a zero accumulator, at the exact values, read
    at (i, j): the sum over the contracted coordinate k of lhs (i, k) * rhs (k, j). -/
theorem matmul_plain_apply {n kk p : ℕ} {φ₁ φ₂ : FTy} (d : DotDims ⟨2, ![n, kk]⟩ ⟨2, ![kk, p]⟩ ⟨2, ![n, p]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![n, kk]⟩ φ₁) (rhs : FVec Ideal ⟨2, ![kk, p]⟩ φ₂)
    (i : Fin n) (j : Fin p) :
    matmul d prec lhs rhs (constant (F := Ideal) ⟨2, ![n, p]⟩ .f32 0x00000000#32) (ix2 i j)
      = ∑ k : Fin kk, lhs (ix2 i k) * rhs (ix2 k j) := by
  have hr : d.contr.rank = 1 := by rw [d.rank_contr, hlc]; rfl
  have hs : d.contr.size ⟨0, by omega⟩ = kk := by
    have h1 : (0 : Nat) < d.lhsContracting.length := by rw [hlc]; exact Nat.one_pos
    refine (d.size_contr 0 h1).trans ?_
    have h2 : d.lhsContracting[0] = (1 : Fin 2) := by simp [hlc]
    rw [h2]; rfl
  refine (Ideal.matmul_constant_zero_apply d prec lhs rhs (ix2 i j)).trans ?_
  refine Fintype.sum_equiv (contrEquiv1 d kk hr hs) _ _ (fun k => ?_)
  have hL : d.lhsIdx (ix2 i j) k = ix2 i (contrEquiv1 d kk hr hs k) := by
    funext c; refine Fin.ext ?_
    match c with
    | ⟨0, _⟩ => exact lhsIdx_val_of_single_non d hlb hln (ix2 i j) k (show 0 < 2 by omega)
    | ⟨1, _⟩ => exact d.lhsIdx_val_of_single hlc (ix2 i j) k
  have hR : d.rhsIdx (ix2 i j) k = ix2 (contrEquiv1 d kk hr hs k) j := by
    funext c; refine Fin.ext ?_
    match c with
    | ⟨0, _⟩ => exact d.rhsIdx_val_of_single hrc (ix2 i j) k
    | ⟨1, _⟩ => exact rhsIdx_val_of_single_non d hlb hrb hln hrn (ix2 i j) k (show 1 < 2 by omega)
  rw [hL, hR]

/-- The tile's product at (r, j): row r of the tile against column j of the side-by-side matrix. -/
theorem product_apply (x0 : Vec Ideal S1024x512 .f32) (x1 : Vec Ideal S512x1536 .bf16) (r : Fin 1024) (j : Fin 1536) :
    k0_pay4 (F := Ideal) x0 x1 (ix2 r j) = ∑ k : Fin 512, x0 (ix2 r k) * x1 (ix2 k j) := by
  unfold k0_pay4
  rw [shapeCast_self]
  exact matmul_plain_apply dot_S1024x512_S512x1536_S1024x1536_1_0_0_1_n_n rfl rfl rfl rfl rfl rfl none _ _ r j

/-- A strip of 512 columns of the tile's product, starting at column `o`, at (r, h). -/
theorem product_cols_apply (x0 : Vec Ideal S1024x512 .f32) (x1 : Vec Ideal S512x1536 .bf16) (o : ℕ) (ho : o + 512 ≤ 1536)
    (hs : S1024x1536.Slices ![0, o] S1024x512) (r : Fin 1024) (h : Fin 512) :
    extractStridedSlice S1024x512 ![0, o] (k0_pay4 (F := Ideal) x0 x1) hs (ix2 r h)
      = ∑ k : Fin 512, x0 (ix2 r k) * x1 (ix2 k ⟨o + h.val, by omega⟩) := by
  refine (extractStridedSlice_apply _ _ hs (ix2 r h) (ix2 r ⟨o + h.val, by omega⟩) (fun a => ?_)).trans
    (product_apply x0 x1 r _)
  match a with
  | ⟨0, _⟩ => show r.val = 0 + r.val; omega
  | ⟨1, _⟩ => rfl

/-- The linear term of the tile at (r, i): the first strip. -/
theorem linear_apply (x0 : Vec Ideal S1024x512 .f32) (x1 : Vec Ideal S512x1536 .bf16) (r : Fin 1024) (i : Fin 512) :
    k0_pay5 (F := Ideal) x0 x1 (ix2 r i) = ∑ k : Fin 512, x0 (ix2 r k) * x1 (ix2 k ⟨0 + i.val, by omega⟩) := by
  unfold k0_pay5
  exact product_cols_apply x0 x1 0 (by omega) _ r i

/-- A sum along the rows of a [1024, 512] array kept as a vector, read at r. -/
theorem rowSum_apply (v : FVec Ideal S1024x512 .f32) (h : S1024x512.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 512, v (ix2 r k) := by
  refine (Ideal.multiReduction_add_single v _ h hφ hacc (ix1 r)).trans ?_
  refine Finset.sum_congr rfl fun k _ => congrArg v ?_
  funext c; refine Fin.ext ?_
  match c with
  | ⟨0, _⟩ => rfl
  | ⟨1, _⟩ => rfl

/-- One hidden unit's contribution: relu (strip entry + bias) times the averaged second-layer weight. -/
theorem hidden_term_apply (x0 : Vec Ideal S1024x512 .f32) (x1 : Vec Ideal S512x1536 .bf16) (o : ℕ) (ho : o + 512 ≤ 1536)
    (hs : S1024x1536.Slices ![0, o] S1024x512) (bias w : Vec Ideal S1x512 .f32)
    (hc : S1x512.ShapeCasts S1x512) (hb : S1x512.Broadcasts S1024x512) (r : Fin 1024) (h : Fin 512) :
    mulf (maximumf (addf (extractStridedSlice S1024x512 ![0, o] (k0_pay4 (F := Ideal) x0 x1) hs)
          (broadcastTo S1024x512 (shapeCast S1x512 bias hc) hb))
        (broadcast S1024x512 (Scalar.ofBits (F := Ideal) .f32 0x00000000#32)))
      (broadcastTo S1024x512 (shapeCast S1x512 w hc) hb) (ix2 r h)
      = max ((∑ k : Fin 512, x0 (ix2 r k) * x1 (ix2 k ⟨o + h.val, by omega⟩)) + bias (ix2 0 h)) Cert.Seasonal.z32 * w (ix2 0 h) := by
  refine (mulf_apply _ _ _).trans ?_
  refine congrArg₂ (· * ·) ?_ ?_
  · refine (maximumf_apply _ _ _).trans ?_
    refine congrArg₂ max ?_ rfl
    refine (addf_apply _ _ _).trans ?_
    refine congrArg₂ (· + ·) (product_cols_apply x0 x1 o ho hs r h) ?_
    rw [shapeCast_self]
    exact broadcastTo_1b_ab_apply bias hb r h
  · rw [shapeCast_self]
    exact broadcastTo_1b_ab_apply w hb r h

/-- The quadratic block's number for row r: the sum over the hidden units, plus the averaged bias. -/
theorem block_q_apply (x0 : Vec Ideal S1024x512 .f32) (x1 : Vec Ideal S512x1536 .bf16) (x2 x4 : Vec Ideal S1x512 .f32)
    (v26 : Vec Ideal S1x1 .f32) (r : Fin 1024) (u : Fin 1) :
    k0_pay6 (F := Ideal) x0 x1 x2 x4 v26 (ix2 r u)
      = (∑ h : Fin 512, max ((∑ k : Fin 512, x0 (ix2 r k) * x1 (ix2 k ⟨512 + h.val, by omega⟩)) + x2 (ix2 0 h)) Cert.Seasonal.z32 * x4 (ix2 0 h))
        + v26 (ix2 0 0) := by
  obtain rfl : u = 0 := Subsingleton.elim u 0
  unfold k0_pay6
  refine (addf_apply _ _ _).trans ?_
  refine congrArg₂ (· + ·) ?_ ?_
  · refine (Cert.Column.shapeCast_a_a1_apply _ _ r 0).trans ?_
    refine (rowSum_apply _ _ _ _ r).trans ?_
    exact Finset.sum_congr rfl fun h _ => hidden_term_apply x0 x1 512 (by omega) _ x2 x4 _ _ r h
  · rw [shapeCast_self]
    exact broadcastTo_1b_ab_apply v26 _ r 0

/-- The cubic block's sum over the hidden units for row r (its averaged bias is added later). -/
theorem block_c_apply (x0 : Vec Ideal S1024x512 .f32) (x1 : Vec Ideal S512x1536 .bf16) (x3 x6 : Vec Ideal S1x512 .f32)
    (r : Fin 1024) (u : Fin 1) :
    k0_pay7 (F := Ideal) x0 x1 x3 x6 (ix2 r u)
      = ∑ h : Fin 512, max ((∑ k : Fin 512, x0 (ix2 r k) * x1 (ix2 k ⟨1024 + h.val, by omega⟩)) + x3 (ix2 0 h)) Cert.Seasonal.z32 * x6 (ix2 0 h) := by
  unfold k0_pay7
  refine (Cert.Column.shapeCast_a_a1_apply _ _ r u).trans ?_
  refine (rowSum_apply _ _ _ _ r).trans ?_
  exact Finset.sum_congr rfl fun h _ => hidden_term_apply x0 x1 1024 (by omega) _ x3 x6 _ _ r h

/-- The value before the ENSO pack is added, at (r, i): the linear term plus the two blocks' numbers. -/
theorem base_apply (v5 : FVec Ideal S1024x512 .f32) (v29 v35 : FVec Ideal S1024x1 .f32) (v37 : FVec Ideal S1x1 .f32)
    (r : Fin 1024) (i : Fin 512) :
    k0_pay1 (F := Ideal) v5 v29 v35 v37 (ix2 r i)
      = (v5 (ix2 r i) + v29 (ix2 r 0)) + (v35 (ix2 r 0) + v37 (ix2 0 0)) := by
  unfold k0_pay1
  refine (addf_apply _ _ _).trans ?_
  refine congrArg₂ (· + ·) ?_ ?_
  · refine (addf_apply _ _ _).trans ?_
    refine congrArg₂ (· + ·) rfl ?_
    rw [shapeCast_self]
    exact Cert.Column.broadcastTo_a1_ab_apply v29 _ r i
  · rw [shapeCast_self]
    refine (Cert.Column.broadcastTo_a1_ab_apply _ _ r i).trans ?_
    refine (addf_apply _ _ _).trans ?_
    refine congrArg₂ (· + ·) rfl ?_
    exact broadcastTo_1b_ab_apply v37 _ r 0

/-- The first store's value, at (r, j) with j < 128: the base value plus the ENSO pack's entry. -/
theorem left_apply (v5 : FVec Ideal S1024x512 .f32) (v29 v35 : FVec Ideal S1024x1 .f32) (v37 : FVec Ideal S1x1 .f32)
    (v46 : Vec Ideal S1024x128 .f32) (r : Fin 1024) (j : Fin 128) :
    k0_pay2 (F := Ideal) v5 v29 v35 v37 v46 (ix2 r j)
      = k0_pay1 (F := Ideal) v5 v29 v35 v37 (ix2 r ⟨0 + j.val, by omega⟩) + v46 (ix2 r j) := by
  unfold k0_pay2
  refine (addf_apply _ _ _).trans ?_
  refine congrArg₂ (· + ·) ?_ ?_
  · refine extractStridedSlice_apply _ _ _ (ix2 r j) (ix2 r ⟨0 + j.val, by omega⟩) (fun a => ?_)
    match a with
    | ⟨0, _⟩ => show r.val = 0 + r.val; omega
    | ⟨1, _⟩ => rfl
  · rw [shapeCast_self]

/-- The second store's value, at (r, j): the base value of column 128 + j. -/
theorem right_apply (v5 : FVec Ideal S1024x512 .f32) (v29 v35 : FVec Ideal S1024x1 .f32) (v37 : FVec Ideal S1x1 .f32)
    (r : Fin 1024) (j : Fin 384) :
    k0_pay3 (F := Ideal) v5 v29 v35 v37 (ix2 r j)
      = k0_pay1 (F := Ideal) v5 v29 v35 v37 (ix2 r ⟨128 + j.val, by omega⟩) := by
  unfold k0_pay3
  refine extractStridedSlice_apply _ _ _ (ix2 r j) (ix2 r ⟨128 + j.val, by omega⟩) (fun a => ?_)
  match a with
  | ⟨0, _⟩ => show r.val = 0 + r.val; omega
  | ⟨1, _⟩ => rfl

end Cert.KernelIdeal.Payload

end
-- ==== Proof.KTile.lean ====
/-
  One tile of the kernel's result in the specification's terms. The body sees blocks: 1024 rows of `x` and of
  the ENSO pack, and the small operands whole. When each block entry is the corresponding entry of the full
  arrays — row r of the tile being batch row b, the side-by-side matrix being [Lᵀ | W₁(quad) | W₁(cubic)], the
  one-row operands the first-layer biases and the averaged second layers — the value the body stores at
  (r, i) is the specification's `kerOut` at (b, i).
-/
import proofs.«131511_j39754217292306_2_alg».proof.Proof.KPayload

noncomputable section

namespace Cert.KernelIdeal.Tile

open Cert.KernelIdeal Cert.KernelIdeal.Gen Cert.KernelIdeal.Payload Cert.Seasonal
open Idealize.ShloMosaic Idealize.ShloMosaic.ValueIdx

variable (x0 : Vec Ideal S1024x512 .f32) (x1 : Vec Ideal S512x1536 .bf16) (x2 x3 x4 x6 : Vec Ideal S1x512 .f32)
  (v26 v36 : Vec Ideal S1x1 .f32) (x8 : Vec Ideal S1024x128 .f32)
  (X : Mat 16384 512) (L qW1 : Mat 512 512) (qb1 : Vct 512) (qW2 : Mat 512 512) (qb2 : Vct 512)
  (cW1 : Mat 512 512) (cb1 : Vct 512) (cW2 : Mat 512 512) (cb2 : Vct 512) (cT cH : Mat 16384 1)

/-- What it means for the body's operands to be the blocks of the full arrays at tile row `r`, batch row `b`. -/
structure IsTile (r : Fin 1024) (b : Fin 16384) : Prop where
  row : ∀ k : Fin 512, x0 (ix2 r k) = X (ix2 b k)
  opL : ∀ (k i : Fin 512) (j : Fin 1536), j.val = i.val → x1 (ix2 k j) = L (ix2 i k)
  opQ : ∀ (k h : Fin 512) (j : Fin 1536), j.val = 512 + h.val → x1 (ix2 k j) = qW1 (ix2 k h)
  opC : ∀ (k h : Fin 512) (j : Fin 1536), j.val = 1024 + h.val → x1 (ix2 k j) = cW1 (ix2 k h)
  biasQ : ∀ h : Fin 512, x2 (ix2 0 h) = qb1 (ix1 h)
  biasC : ∀ h : Fin 512, x3 (ix2 0 h) = cb1 (ix1 h)
  avgQ : ∀ h : Fin 512, x4 (ix2 0 h) = Ideal.div (z32 + ∑ d : Fin 512, qW2 (ix2 h d)) n512
  avgC : ∀ h : Fin 512, x6 (ix2 0 h) = Ideal.div (z32 + ∑ d : Fin 512, cW2 (ix2 h d)) n512
  avgBQ : v26 (ix2 0 0) = Ideal.div (z32 + ∑ d : Fin 512, qb2 (ix1 d)) n512
  avgBC : v36 (ix2 0 0) = Ideal.div (z32 + ∑ d : Fin 512, cb2 (ix1 d)) n512
  pack : ∀ j : Fin 128, x8 (ix2 r j) = if j.val = 0 then cT (ix2 b 0) else if j.val = 1 then cH (ix2 b 0) else z32

variable {x0 x1 x2 x3 x4 x6 v26 v36 x8 X L qW1 qb1 qW2 qb2 cW1 cb1 cW2 cb2 cT cH}

/-- The value before the ENSO pack is added: the linear term plus the two blocks' means. -/
theorem base_value {r : Fin 1024} {b : Fin 16384}
    (T : IsTile x0 x1 x2 x3 x4 x6 v26 v36 x8 X L qW1 qb1 qW2 qb2 cW1 cb1 cW2 cb2 cT cH r b) (i : Fin 512) :
    k0_pay1 (F := Ideal) (k0_pay5 x0 x1) (k0_pay6 x0 x1 x2 x4 v26) (k0_pay7 x0 x1 x3 x6) (k0_pay8 v36) (ix2 r i)
      = (lin X L b i + meanBefore X qW1 qb1 qW2 qb2 b) + meanBefore X cW1 cb1 cW2 cb2 b := by
  rw [base_apply, linear_apply, block_q_apply, block_c_apply]
  have h8 : k0_pay8 (F := Ideal) v36 (ix2 0 0) = v36 (ix2 0 0) := by unfold k0_pay8; rw [shapeCast_self]
  rw [h8, T.avgBQ, T.avgBC]
  unfold lin meanBefore hid
  refine congrArg₂ (· + ·) (congrArg₂ (· + ·) ?_ (congrArg₂ (· + ·) ?_ rfl)) (congrArg₂ (· + ·) ?_ rfl)
  · exact Finset.sum_congr rfl fun k _ => by rw [T.row k, T.opL k i _ (by simp)]
  · refine Finset.sum_congr rfl fun h _ => ?_
    rw [T.biasQ h, T.avgQ h]
    refine congrArg₂ (· * ·) (congrArg₂ max (congrArg₂ (· + ·) ?_ rfl) rfl) rfl
    exact Finset.sum_congr rfl fun k _ => by rw [T.row k, T.opQ k h _ rfl]
  · refine Finset.sum_congr rfl fun h _ => ?_
    rw [T.biasC h, T.avgC h]
    refine congrArg₂ (· * ·) (congrArg₂ max (congrArg₂ (· + ·) ?_ rfl) rfl) rfl
    exact Finset.sum_congr rfl fun k _ => by rw [T.row k, T.opC k h _ rfl]

/-- The first 128 columns, as stored by the first store. -/
theorem left_value {r : Fin 1024} {b : Fin 16384}
    (T : IsTile x0 x1 x2 x3 x4 x6 v26 v36 x8 X L qW1 qb1 qW2 qb2 cW1 cb1 cW2 cb2 cT cH r b) (j : Fin 128) (i : Fin 512) (hi : i.val = j.val) :
    k0_pay2 (F := Ideal) (k0_pay5 x0 x1) (k0_pay6 x0 x1 x2 x4 v26) (k0_pay7 x0 x1 x3 x6) (k0_pay8 v36) x8 (ix2 r j)
      = kerOut X L qW1 qb1 qW2 qb2 cW1 cb1 cW2 cb2 cT cH b i := by
  have hidx : (⟨0 + j.val, by omega⟩ : Fin 512) = i := Fin.ext (by simp [hi])
  rw [left_apply, hidx, base_value T i, T.pack j]
  unfold kerOut enso
  rw [hi, if_pos j.isLt]

/-- The other 384 columns, as stored by the second store. -/
theorem right_value {r : Fin 1024} {b : Fin 16384}
    (T : IsTile x0 x1 x2 x3 x4 x6 v26 v36 x8 X L qW1 qb1 qW2 qb2 cW1 cb1 cW2 cb2 cT cH r b) (j : Fin 384) (i : Fin 512) (hi : i.val = 128 + j.val) :
    k0_pay3 (F := Ideal) (k0_pay5 x0 x1) (k0_pay6 x0 x1 x2 x4 v26) (k0_pay7 x0 x1 x3 x6) (k0_pay8 v36) (ix2 r j)
      = kerOut X L qW1 qb1 qW2 qb2 cW1 cb1 cW2 cb2 cT cH b i := by
  have hidx : (⟨128 + j.val, by omega⟩ : Fin 512) = i := Fin.ext hi.symm
  rw [right_apply, hidx, base_value T i]
  unfold kerOut
  rw [if_neg (show ¬ i.val < 128 by omega)]

end Cert.KernelIdeal.Tile

end
-- ==== Proof.KHost.lean ====
/-
  What the arrays the region's windows read hold when the region is entered, as functions of the entry function's
  arguments. Besides the input `x` itself the windows read eight arrays that host operations computed: the weight
  matrix (the seasonal operator transposed and the two blocks' first layers, side by side), the two first-layer
  biases laid as rows, the row means of the two second-layer matrices, the means of the two second-layer biases
  repeated along 128 lanes, and the two ENSO corrections packed into 128 lanes. Each array is first written as the
  composed term of the operations that produced it (`arr_*`) and then read at an index (`host_*`). The seasonal
  operator and the two ENSO networks are the same chains of operations, in the same order, as in the reference
  program, so they are named by the reference's stages applied to this program's argument arrays.
-/
import proofs.«131511_j39754217292306_2_alg».proof.Proof.KData
import proofs.«131511_j39754217292306_2_alg».proof.Proof.Spec
import proofs.«131511_j39754217292306_2_alg».proof.Proof.LibLayoutReads
import proofs.«131511_j39754217292306_2_alg».proof.Proof.Gen.ReferenceIdeal.Read
import Idealize.ShloMosaic.Lib.Pipeline.Value
import Idealize.ShloMosaic.Lib.ValueIdx
import Idealize.ShloMosaic.PureOps.Ideal.Laws

set_option maxRecDepth 4000

noncomputable section

open scoped BigOperators

namespace Cert.KernelIdeal.HostVals

open Cert.KernelIdeal Cert.KernelIdeal.Gen Cert.KernelIdeal.Entry
open Idealize.ShloMosaic Idealize.ShloMosaic.TcCoe Idealize.SL.Sem Idealize.ShloMosaic.StableHlo
open Idealize.ShloMosaic.ValueIdx Idealize.ShloMosaic.LayoutReads

/-- Opens `V m c b` into the host operations' results: the five stretches laid end to end, then each
    operation's result at its own buffer and the earlier contents everywhere else; an operand of a concatenation
    is named by its position in the operand list, which is read off the literal list. -/
macro "host_results" : tactic =>
  `(tactic| (dsimp only [Cert.KernelIdeal.Entry.V]
             simp only [Cert.KernelIdeal.Entry.hostStretches, hostOps0, hostOps0_1, hostOps0_2, hostOps0_3, hostOps0_4,
               List.flatten_cons, List.flatten_nil, List.append_nil, List.cons_append, List.nil_append]
             simp (disch := decide) only [after_cons, after_nil,
               nullary_result', unary_result', binary_result', reshape_result', nary_result',
               nullary_result_ne', unary_result_ne', binary_result_ne', reshape_result_ne', nary_result_ne',
               Matrix.cons_val]))

variable (m : (ℓ : Loc nD τ sig) → Buf (Elt Ideal) ℓ) (c : Dev nD)

/-! ## The input itself: no host operation writes it -/

theorem host_x : V m c main_arg0 = m ((c : Thread nD τ).loc main_arg0) := by
  host_results <;> rfl

/-! ## The two first-layer biases: a vector laid as one row -/

set_option maxHeartbeats 400000 in
theorem arr_qb1 : (V m c main_v36 : S1x512.Idx → EReal)
    = shapeCast S1x512 (m ((c : Thread nD τ).loc main_arg4)) shapeCasts_S512_S1x512 := by
  host_results
  rfl

set_option maxHeartbeats 400000 in
theorem arr_cb1 : (V m c main_v37 : S1x512.Idx → EReal)
    = shapeCast S1x512 (m ((c : Thread nD τ).loc main_arg8)) shapeCasts_S512_S1x512 := by
  host_results
  rfl

theorem host_qb1 (h : Fin 512) :
    V m c main_v36 (ix2 0 h) = m ((c : Thread nD τ).loc main_arg4) (ix1 h) := by
  rw [arr_qb1]
  exact shapeCast_vec_row_apply _ _ 0 h

theorem host_cb1 (h : Fin 512) :
    V m c main_v37 (ix2 0 h) = m ((c : Thread nD τ).loc main_arg8) (ix1 h) := by
  rw [arr_cb1]
  exact shapeCast_vec_row_apply _ _ 0 h

/-! ## The row means of the two second-layer matrices -/

/-- The mean over a row of a 512 × 512 matrix, as the host computes it: the row's sum from zero, divided by 512,
    the 512 results laid as one row. -/
def rowMeans (W : S512x512.Idx → EReal) : S1x512.Idx → EReal :=
  shapeCast S1x512
    (Host.divf (F := Ideal) (Host.reduceAdd (F := Ideal) W (constant (F := Ideal) S_ .f32 0x00000000#32) reducesTo_S512x512_S512_d1 h_S_)
      (broadcastInDim S512 ![] bcast_S_S512 (constant (F := Ideal) S_ .f32 0x44000000#32)))
    shapeCasts_S512_S1x512

set_option maxHeartbeats 400000 in
theorem rowMeans_apply (W : S512x512.Idx → EReal) (h : Fin 512) :
    rowMeans W (ix2 0 h) = Ideal.div (Cert.Seasonal.z32 + ∑ d : Fin 512, W (ix2 h d)) Cert.Seasonal.n512 := by
  unfold rowMeans
  rw [shapeCast_vec_row_apply]
  show Ideal.div (Host.reduceAdd (F := Ideal) W _ reducesTo_S512x512_S512_d1 h_S_ (ix1 h))
      (broadcastInDim S512 ![] bcast_S_S512 (constant (F := Ideal) S_ .f32 0x44000000#32) (ix1 h)) = _
  rw [bcast_scalar_apply]
  simp only [Host.reduceAdd, Ideal.hostReduceAdd_def]
  rw [Ideal.hostReduceAdd_single reducesTo_S512x512_S512_d1 (by decide)]
  refine congrArg₂ Ideal.div (congrArg (_ + ·) (Finset.sum_congr rfl fun d _ => ?_)) rfl
  exact congrArg W (funext fun a => Fin.ext (by match a with | ⟨0, _⟩ => rfl | ⟨1, _⟩ => rfl))

set_option maxHeartbeats 400000 in
theorem arr_w2bar_q : (V m c main_v41 : S1x512.Idx → EReal) = rowMeans (m ((c : Thread nD τ).loc main_arg5)) := by
  host_results
  rfl

set_option maxHeartbeats 400000 in
theorem arr_w2bar_c : (V m c main_v45 : S1x512.Idx → EReal) = rowMeans (m ((c : Thread nD τ).loc main_arg9)) := by
  host_results
  rfl

theorem host_w2bar_q (h : Fin 512) :
    V m c main_v41 (ix2 0 h)
      = Ideal.div (Cert.Seasonal.z32 + (∑ d : Fin 512, m ((c : Thread nD τ).loc main_arg5) (ix2 h d) : EReal)) Cert.Seasonal.n512 := by
  rw [arr_w2bar_q]; exact rowMeans_apply _ h

theorem host_w2bar_c (h : Fin 512) :
    V m c main_v45 (ix2 0 h)
      = Ideal.div (Cert.Seasonal.z32 + (∑ d : Fin 512, m ((c : Thread nD τ).loc main_arg9) (ix2 h d) : EReal)) Cert.Seasonal.n512 := by
  rw [arr_w2bar_c]; exact rowMeans_apply _ h

/-! ## The means of the two second-layer biases, one number repeated along 128 lanes -/

/-- A rank-1 index is its one coordinate. -/
def vecIdxEquiv (n : Nat) : (⟨1, ![n]⟩ : Shape).Idx ≃ Fin n where
  toFun i := i 0
  invFun := ix1
  left_inv i := (eq_ix1 i).symm
  right_inv _ := rfl

/-- … so a sum over a vector's indices is the sum over its coordinates. -/
theorem sum_vecIdx {M : Type*} [AddCommMonoid M] {n : Nat} (f : (⟨1, ![n]⟩ : Shape).Idx → M) :
    ∑ i, f i = ∑ a : Fin n, f (ix1 a) := by
  rw [← Equiv.sum_comp (vecIdxEquiv n).symm f]
  rfl

/-- The mean of a 512-vector as the host computes it (its sum from zero, divided by 512), repeated along a row of 128. -/
def vecMean (b : S512.Idx → EReal) : S1x128.Idx → EReal :=
  broadcastInDim S1x128 ![] bcast_S_S1x128
    (Host.divf (F := Ideal) (Host.reduceAdd (F := Ideal) b (constant (F := Ideal) S_ .f32 0x00000000#32) reducesTo_S512_S_d0 h_S_)
      (constant (F := Ideal) S_ .f32 0x44000000#32))

set_option maxHeartbeats 400000 in
theorem vecMean_apply (b : S512.Idx → EReal) (j : S1x128.Idx) :
    vecMean b j = Ideal.div (Cert.Seasonal.z32 + ∑ d : Fin 512, b (ix1 d)) Cert.Seasonal.n512 := by
  unfold vecMean
  rw [bcast_scalar_apply]
  show Ideal.div (Host.reduceAdd (F := Ideal) b _ reducesTo_S512_S_d0 h_S_ ix0) _ = _
  simp only [Host.reduceAdd, Ideal.hostReduceAdd_def]
  rw [Ideal.hostReduceAdd_total reducesTo_S512_S_d0 (fun a => a.elim0), sum_vecIdx]
  rfl

set_option maxHeartbeats 400000 in
theorem arr_qb2m : (V m c main_v48 : S1x128.Idx → EReal) = vecMean (m ((c : Thread nD τ).loc main_arg6)) := by
  host_results
  rfl

set_option maxHeartbeats 400000 in
theorem arr_cb2m : (V m c main_v51 : S1x128.Idx → EReal) = vecMean (m ((c : Thread nD τ).loc main_arg10)) := by
  host_results
  rfl

theorem host_qb2m (j : Fin 128) :
    V m c main_v48 (ix2 0 j)
      = Ideal.div (Cert.Seasonal.z32 + (∑ d : Fin 512, m ((c : Thread nD τ).loc main_arg6) (ix1 d) : EReal)) Cert.Seasonal.n512 := by
  rw [arr_qb2m]; exact vecMean_apply _ _

theorem host_cb2m (j : Fin 128) :
    V m c main_v51 (ix2 0 j)
      = Ideal.div (Cert.Seasonal.z32 + (∑ d : Fin 512, m ((c : Thread nD τ).loc main_arg10) (ix1 d) : EReal)) Cert.Seasonal.n512 := by
  rw [arr_cb2m]; exact vecMean_apply _ _

/-- Two indices of matrices with the same row agree off the column axis. -/
theorem off_axis {n0 n1 n1' : Nat} (k : Fin n0) (u : Fin n1) (u' : Fin n1') :
    ∀ b : Fin 2, b.cast (rfl : (2 : Nat) = 2) ≠ (1 : Fin 2) →
      ((ix2 k u : (⟨2, ![n0, n1]⟩ : Shape).Idx) b).val = ((ix2 k u' : (⟨2, ![n0, n1']⟩ : Shape).Idx) b).val := by
  intro b hb
  match b with
  | ⟨0, _⟩ => rfl
  | ⟨1, _⟩ => exact absurd rfl hb

/-! ## The weight matrix: the transposed operator and the two first layers, side by side -/

/-- The three blocks of the matrix the kernel multiplies by: the transpose of the seasonal operator `L`, the quadratic
    block's first layer and the cubic block's (each rounded to bf16 first, which changes no ideal value). -/
def wcatPieces (L W1q W1c : S512x512.Idx → EReal) : List ((s : Shape) × (s.Idx → EReal)) :=
  [⟨S512x512, truncf (F := Ideal) .bf16 (transpose S512x512 [1, 0] L transposes_S512x512_S512x512_1_0 : FVec Ideal S512x512 .f32) bitsLt_bf16_f32⟩,
   ⟨S512x512, truncf (F := Ideal) .bf16 (W1q : FVec Ideal S512x512 .f32) bitsLt_bf16_f32⟩,
   ⟨S512x512, truncf (F := Ideal) .bf16 (W1c : FVec Ideal S512x512 .f32) bitsLt_bf16_f32⟩]

/-- … laid side by side: 512 rows, 1536 columns. -/
def wcat (L W1q W1c : S512x512.Idx → EReal) : S512x1536.Idx → EReal :=
  concatenate S512x1536 1 (wcatPieces L W1q W1c) concatenates_S512x512_S512x512_S512x512_S512x1536_d1

set_option maxHeartbeats 400000 in
theorem arr_wcat : (V m c main_v35 : S512x1536.Idx → EReal)
    = wcat (V m c main_v30) (m ((c : Thread nD τ).loc main_arg3)) (m ((c : Thread nD τ).loc main_arg7)) := by
  host_results
  rfl

set_option maxHeartbeats 400000 in
theorem arr_L : (V m c main_v30 : S512x512.Idx → EReal)
    = Cert.ReferenceIdeal.Read.val_main_v30 (F := Ideal) (m ((c : Thread nD τ).loc main_arg1)) (m ((c : Thread nD τ).loc main_arg2)) := by
  host_results
  rfl

/-- In the first 512 columns: the operator, transposed. -/
theorem wcat_left (L W1q W1c : S512x512.Idx → EReal) (k i : Fin 512) :
    wcat L W1q W1c (ix2 k ⟨i.val, by have := i.isLt; omega⟩) = L (ix2 i k) := by
  have key := concatenate_apply_piece (1 : Fin S512x1536.rank) (wcatPieces L W1q W1c)
    concatenates_S512x512_S512x512_S512x512_S512x1536_d1 (ix2 k ⟨i.val, by have := i.isLt; omega⟩)
    0 (show 0 < 3 by omega) S512x512 _ rfl rfl 0 rfl (ix2 k i) (off_axis k i _) (Nat.zero_add _)
  refine key.trans ?_
  show transpose S512x512 [1, 0] L transposes_S512x512_S512x512_1_0 (ix2 k i) = L (ix2 i k)
  exact transpose_apply [1, 0] L _ (ix2 k i) (ix2 i k) (fun b => match b with | ⟨0, _⟩ => rfl | ⟨1, _⟩ => rfl)

/-- In the next 512 columns: the quadratic block's first layer. -/
theorem wcat_mid (L W1q W1c : S512x512.Idx → EReal) (k h : Fin 512) :
    wcat L W1q W1c (ix2 k ⟨512 + h.val, by have := h.isLt; omega⟩) = W1q (ix2 k h) :=
  concatenate_apply_piece (1 : Fin S512x1536.rank) (wcatPieces L W1q W1c)
    concatenates_S512x512_S512x512_S512x512_S512x1536_d1 (ix2 k ⟨512 + h.val, by have := h.isLt; omega⟩)
    1 (show 1 < 3 by omega) S512x512 _ rfl rfl 512 rfl (ix2 k h) (off_axis k h _) rfl

/-- In the last 512 columns: the cubic block's first layer. -/
theorem wcat_right (L W1q W1c : S512x512.Idx → EReal) (k h : Fin 512) :
    wcat L W1q W1c (ix2 k ⟨1024 + h.val, by have := h.isLt; omega⟩) = W1c (ix2 k h) :=
  concatenate_apply_piece (1 : Fin S512x1536.rank) (wcatPieces L W1q W1c)
    concatenates_S512x512_S512x512_S512x512_S512x1536_d1 (ix2 k ⟨1024 + h.val, by have := h.isLt; omega⟩)
    2 (show 2 < 3 by omega) S512x512 _ rfl rfl 1024 rfl (ix2 k h) (off_axis k h _) rfl

theorem host_wcat_L (k i : Fin 512) :
    V m c main_v35 (ix2 k ⟨i.val, by have := i.isLt; omega⟩)
      = Cert.ReferenceIdeal.Read.val_main_v30 (F := Ideal) (m ((c : Thread nD τ).loc main_arg1)) (m ((c : Thread nD τ).loc main_arg2)) (ix2 i k) := by
  rw [arr_wcat, wcat_left, arr_L]

theorem host_wcat_q (k h : Fin 512) :
    V m c main_v35 (ix2 k ⟨512 + h.val, by have := h.isLt; omega⟩) = m ((c : Thread nD τ).loc main_arg3) (ix2 k h) := by
  rw [arr_wcat, wcat_mid]

theorem host_wcat_c (k h : Fin 512) :
    V m c main_v35 (ix2 k ⟨1024 + h.val, by have := h.isLt; omega⟩) = m ((c : Thread nD τ).loc main_arg7) (ix2 k h) := by
  rw [arr_wcat, wcat_right]

/-! ## The ENSO corrections packed into 128 lanes -/

/-- The temperature network's output, the thermocline network's, and 126 columns of zeros. -/
def ensoPieces (cT cH : S16384x1.Idx → EReal) : List ((s : Shape) × (s.Idx → EReal)) :=
  [⟨S16384x1, cT⟩, ⟨S16384x1, cH⟩,
   ⟨S16384x126, (broadcastInDim S16384x126 ![] bcast_S_S16384x126 (constant (F := Ideal) S_ .f32 0x00000000#32) : FVec Ideal S16384x126 .f32)⟩]

/-- … laid side by side: one row per batch row, 128 lanes. -/
def ensoPack (cT cH : S16384x1.Idx → EReal) : S16384x128.Idx → EReal :=
  concatenate S16384x128 1 (ensoPieces cT cH) concatenates_S16384x1_S16384x1_S16384x126_S16384x128_d1

set_option maxHeartbeats 400000 in
theorem arr_cT : (V m c main_v72 : S16384x1.Idx → EReal)
    = Cert.ReferenceIdeal.Read.val_main_v81 (F := Ideal) (m ((c : Thread nD τ).loc main_arg0)) (m ((c : Thread nD τ).loc main_arg11))
        (m ((c : Thread nD τ).loc main_arg12)) (m ((c : Thread nD τ).loc main_arg13)) (m ((c : Thread nD τ).loc main_arg14)) := by
  host_results
  rfl

set_option maxHeartbeats 400000 in
theorem arr_cH : (V m c main_v81 : S16384x1.Idx → EReal)
    = Cert.ReferenceIdeal.Read.val_main_v90 (F := Ideal) (m ((c : Thread nD τ).loc main_arg0)) (m ((c : Thread nD τ).loc main_arg15))
        (m ((c : Thread nD τ).loc main_arg16)) (m ((c : Thread nD τ).loc main_arg17)) (m ((c : Thread nD τ).loc main_arg18)) := by
  host_results
  rfl

set_option maxHeartbeats 400000 in
theorem arr_enso : (V m c main_v83 : S16384x128.Idx → EReal)
    = ensoPack
        (Cert.ReferenceIdeal.Read.val_main_v81 (F := Ideal) (m ((c : Thread nD τ).loc main_arg0)) (m ((c : Thread nD τ).loc main_arg11))
          (m ((c : Thread nD τ).loc main_arg12)) (m ((c : Thread nD τ).loc main_arg13)) (m ((c : Thread nD τ).loc main_arg14)))
        (Cert.ReferenceIdeal.Read.val_main_v90 (F := Ideal) (m ((c : Thread nD τ).loc main_arg0)) (m ((c : Thread nD τ).loc main_arg15))
          (m ((c : Thread nD τ).loc main_arg16)) (m ((c : Thread nD τ).loc main_arg17)) (m ((c : Thread nD τ).loc main_arg18))) := by
  host_results
  rfl

/-- Lane 0 holds the temperature correction, lane 1 the thermocline correction, every other lane zero. -/
theorem ensoPack_apply (cT cH : S16384x1.Idx → EReal) (b : Fin 16384) (j : Fin 128) :
    ensoPack cT cH (ix2 b j)
      = if j.val = 0 then cT (ix2 b 0) else if j.val = 1 then cH (ix2 b 0) else Cert.Seasonal.z32 := by
  by_cases h0 : j.val = 0
  · rw [if_pos h0]
    exact concatenate_apply_piece (1 : Fin S16384x128.rank) (ensoPieces cT cH)
      concatenates_S16384x1_S16384x1_S16384x126_S16384x128_d1 (ix2 b j)
      0 (show 0 < 3 by omega) S16384x1 _ rfl rfl 0 rfl (ix2 b 0) (off_axis b 0 j) (by show 0 + 0 = j.val; omega)
  · rw [if_neg h0]
    by_cases h1 : j.val = 1
    · rw [if_pos h1]
      exact concatenate_apply_piece (1 : Fin S16384x128.rank) (ensoPieces cT cH)
        concatenates_S16384x1_S16384x1_S16384x126_S16384x128_d1 (ix2 b j)
        1 (show 1 < 3 by omega) S16384x1 _ rfl rfl 1 rfl (ix2 b 0) (off_axis b 0 j) (by show 1 + 0 = j.val; omega)
    · rw [if_neg h1]
      have hj := j.isLt
      refine (concatenate_apply_piece (1 : Fin S16384x128.rank) (ensoPieces cT cH)
        concatenates_S16384x1_S16384x1_S16384x126_S16384x128_d1 (ix2 b j)
        2 (show 2 < 3 by omega) S16384x126 _ rfl rfl 2 rfl (ix2 b ⟨j.val - 2, by omega⟩) (off_axis b _ j)
        (by show 2 + (j.val - 2) = j.val; omega)).trans ?_
      exact bcast_scalar_apply _ _ _

theorem host_enso (b : Fin 16384) (j : Fin 128) :
    V m c main_v83 (ix2 b j)
      = if j.val = 0 then
          Cert.ReferenceIdeal.Read.val_main_v81 (F := Ideal) (m ((c : Thread nD τ).loc main_arg0)) (m ((c : Thread nD τ).loc main_arg11))
            (m ((c : Thread nD τ).loc main_arg12)) (m ((c : Thread nD τ).loc main_arg13)) (m ((c : Thread nD τ).loc main_arg14)) (ix2 b 0)
        else if j.val = 1 then
          Cert.ReferenceIdeal.Read.val_main_v90 (F := Ideal) (m ((c : Thread nD τ).loc main_arg0)) (m ((c : Thread nD τ).loc main_arg15))
            (m ((c : Thread nD τ).loc main_arg16)) (m ((c : Thread nD τ).loc main_arg17)) (m ((c : Thread nD τ).loc main_arg18)) (ix2 b 0)
        else Cert.Seasonal.z32 := by
  rw [arr_enso, ensoPack_apply]

end Cert.KernelIdeal.HostVals
end
-- ==== Proof.KValue.lean ====
/-
  From blocks to the array: the kernel program's result as ONE function of its arguments. At grid point t the
  body stores, at row r of the output tile, the specification's value for batch row 1024·t + r — its operands being
  the blocks of the arrays the host operations prepared, and those arrays being, entry by entry, the transposed
  seasonal operator beside the two first-layer weight matrices, the first-layer biases, the averaged second
  layers, and the two ENSO outputs packed into the first two of 128 lanes. The sixteen output tiles cover the
  array, so after the run the array holds the specification's `kerOut` of the arguments at every index.
-/
import proofs.«131511_j39754217292306_2_alg».proof.Proof.KCover
import proofs.«131511_j39754217292306_2_alg».proof.Proof.KFrame
import proofs.«131511_j39754217292306_2_alg».proof.Proof.KBlockReads
import proofs.«131511_j39754217292306_2_alg».proof.Proof.KTile
import proofs.«131511_j39754217292306_2_alg».proof.Proof.KHost

noncomputable section

namespace Cert.KernelIdeal.Whole

open Cert.KernelIdeal Cert.KernelIdeal.Gen Cert.KernelIdeal.Entry Cert.KernelIdeal.HostVals
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (c : Dev nD)

/-- The seasonal operator of the program's `t` and Fourier coefficients (the host's Fourier combination). -/
abbrev opL : Cert.Seasonal.Mat 512 512 :=
  Cert.ReferenceIdeal.Read.val_main_v30 (F := Ideal) (m ((c : Thread nD τ).loc main_arg1)) (m ((c : Thread nD τ).loc main_arg2))
/-- The temperature network's output, one number per batch row. -/
abbrev outT : Cert.Seasonal.Mat 16384 1 :=
  Cert.ReferenceIdeal.Read.val_main_v81 (F := Ideal) (m ((c : Thread nD τ).loc main_arg0)) (m ((c : Thread nD τ).loc main_arg11))
    (m ((c : Thread nD τ).loc main_arg12)) (m ((c : Thread nD τ).loc main_arg13)) (m ((c : Thread nD τ).loc main_arg14))
/-- The thermocline network's output, one number per batch row. -/
abbrev outH : Cert.Seasonal.Mat 16384 1 :=
  Cert.ReferenceIdeal.Read.val_main_v90 (F := Ideal) (m ((c : Thread nD τ).loc main_arg0)) (m ((c : Thread nD τ).loc main_arg15))
    (m ((c : Thread nD τ).loc main_arg16)) (m ((c : Thread nD τ).loc main_arg17)) (m ((c : Thread nD τ).loc main_arg18))

/-- What the output array ends holding: the specification's kernel-side value of the arguments, at every index. -/
def result : S16384x512.Idx → EReal := fun j =>
  Cert.Seasonal.kerOut (m ((c : Thread nD τ).loc main_arg0)) (opL m c)
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (outT m c) (outH m c) (j 0) (j 1)

theorem result_apply (j : S16384x512.Idx) : result m c j =
    Cert.Seasonal.kerOut (m ((c : Thread nD τ).loc main_arg0)) (opL m c)
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (outT m c) (outH m c) (j 0) (j 1) := rfl

/-- At point t and tile row r the body's operands are the blocks of the prepared arrays. -/
theorem tile_facts (t : Fin cfg0.N) (r : Fin 1024) :
    Cert.KernelIdeal.Tile.IsTile (iblk m c 0 t) (iblk m c 1 t) (iblk m c 2 t) (iblk m c 3 t) (iblk m c 4 t) (iblk m c 6 t)
      (View.ld (iblk m c 5 t) rectLane0) (View.ld (iblk m c 7 t) rectLane0) (iblk m c 8 t)
      (m ((c : Thread nD τ).loc main_arg0)) (opL m c)
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (outT m c) (outH m c) r (rowOf t r) where
  row k := by rw [blk_x, host_x]
  opL k i j hj := by
    have hj' : j = ⟨i.val, by have := i.isLt; omega⟩ := Fin.ext hj
    rw [hj', blk_w]; exact host_wcat_L m c k i
  opQ k h j hj := by
    have hj' : j = ⟨512 + h.val, by have := h.isLt; omega⟩ := Fin.ext hj
    rw [hj', blk_w]; exact host_wcat_q m c k h
  opC k h j hj := by
    have hj' : j = ⟨1024 + h.val, by have := h.isLt; omega⟩ := Fin.ext hj
    rw [hj', blk_w]; exact host_wcat_c m c k h
  biasQ h := by rw [blk_qb1]; exact host_qb1 m c h
  biasC h := by rw [blk_cb1]; exact host_cb1 m c h
  avgQ h := by rw [blk_w2q]; exact host_w2bar_q m c h
  avgC h := by rw [blk_w2c]; exact host_w2bar_c m c h
  avgBQ := by rw [blk_b2q]; exact host_qb2m m c 0
  avgBC := by rw [blk_b2c]; exact host_cb2m m c 0
  pack j := by rw [blk_enso]; exact host_enso m c (rowOf t r) j

theorem hz : (![0, 0] : Fin 2 → Nat) = fun _ => 0 := funext fun a => by fin_cases a <;> rfl

/-- What point t writes back is block t of `result`. -/
theorem flushed_eq (t : Fin cfg0.N) :
    (dats m 0 c).flushed 9 t = ((cfg0.win 9).blk t).view.read (Elt Ideal) (result m c) := by
  show (cfg0.win 9).cut (grid0.coords t) ((dats m 0 c).after 9 t) = _
  rw [after_out]
  unfold outBlock
  simp only [View.ld_unit_zero (S := S1024x512) hz, View.ld_unit_zero (S := S512x1536) hz,
    View.ld_unit_zero (S := S1x512) hz, View.ld_unit_zero (S := S1024x128) hz]
  obtain ⟨-, -, -, -, -, -, -, -, -, -, -, -, -, -, -, -, -, -, e0, e1⟩ := idx_facts t
  refine funext fun (y : S1024x512.Idx) => ?_
  show (View.canon ([⟨rectOutHi, _⟩, ⟨rectOutLo, _⟩] : List (View.Piece (Elt Ideal) S1024x512 .f32)) y : EReal)
    = result m c (((cfg0.win 9).blk t).view.emb y)
  refine View.canon_apply_of_pieces (Val := Elt Ideal)
    ((fun y' => result m c (((cfg0.win 9).blk t).view.emb y')) : S1024x512.Idx → Elt Ideal .f32) _ ?_ y
    (outBlock_cover _ _ y)
  intro p hp x
  simp only [List.mem_cons, List.mem_singleton, List.not_mem_nil, or_false] at hp
  rcases hp with rfl | rfl
  · obtain ⟨r, j, rfl⟩ : ∃ (r : Fin 1024) (j : Fin 384), x = ix2 r j := ⟨x 0, x 1, eq_ix2 x⟩
    have hb : ((cfg0.win 9).blk t).view.emb (rectOutHi.emb (ix2 r j)) (0 : Fin 2) = rowOf t r :=
      Fin.ext (by show win0_9.index t (0 : Fin 2) * 1024 + 1 * (0 + 1 * r.val) = 1024 * t.val + r.val; omega)
    have hcol : ((cfg0.win 9).blk t).view.emb (rectOutHi.emb (ix2 r j)) (1 : Fin 2) = (⟨128 + j.val, by omega⟩ : Fin 512) :=
      Fin.ext (by show win0_9.index t (1 : Fin 2) * 512 + 1 * (128 + 1 * j.val) = 128 + j.val; omega)
    show _ = result m c (((cfg0.win 9).blk t).view.emb (rectOutHi.emb (ix2 r j)))
    rw [result_apply, hb, hcol]
    exact Cert.KernelIdeal.Tile.right_value (tile_facts m c t r) j _ rfl
  · obtain ⟨r, j, rfl⟩ : ∃ (r : Fin 1024) (j : Fin 128), x = ix2 r j := ⟨x 0, x 1, eq_ix2 x⟩
    have hb : ((cfg0.win 9).blk t).view.emb (rectOutLo.emb (ix2 r j)) (0 : Fin 2) = rowOf t r :=
      Fin.ext (by show win0_9.index t (0 : Fin 2) * 1024 + 1 * (0 + 1 * r.val) = 1024 * t.val + r.val; omega)
    have hcol : ((cfg0.win 9).blk t).view.emb (rectOutLo.emb (ix2 r j)) (1 : Fin 2) = (⟨j.val, by omega⟩ : Fin 512) :=
      Fin.ext (by show win0_9.index t (1 : Fin 2) * 512 + 1 * (0 + 1 * j.val) = j.val; omega)
    show _ = result m c (((cfg0.win 9).blk t).view.emb (rectOutLo.emb (ix2 r j)))
    rw [result_apply, hb, hcol]
    exact Cert.KernelIdeal.Tile.left_value (tile_facts m c t r) j _ rfl

/-- After the run the output array holds `result`. -/
theorem final : (dats m 0 c).arrAt 9 cfg0.N = result m c :=
  (dats m 0 c).arrAt_eq_of_cover 9 (result m c) (fun t _ => flushed_eq m c t) out_cover

end Cert.KernelIdeal.Whole

end
-- ==== Proof.RefValue.lean ====
/-
  The reference's result, read entry by entry.

  The reference adds three arrays: the batch against the seasonal operator (one contraction), the two graph
  blocks' means broadcast along the state axis, and the ENSO correction laid into the first two state components
  by a concatenation with 510 columns of zeros. Each operation of the reference is read at an index from its
  operands at an index; chained from the result inwards, the entry (b, i) of the result is the specification's
  `refOut` at (b, i). The seasonal operator and the two ENSO networks' outputs are not opened: they are carried as
  the arrays the reference itself computes for them.
-/
import proofs.«131511_j39754217292306_2_alg».proof.Proof.Gen.ReferenceIdeal.Read
import proofs.«131511_j39754217292306_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open Cert.Seasonal

/-! ## Where each operation reads its operands

Each contraction reads row `b` of its left operand; the operator is read along its row `i` (the reference contracts
the operator's second axis), a weight matrix down its column. A bias is a vector broadcast over the batch, so at
(b, h) it is read at `h`. A block's mean is a column [16384, 1] broadcast along the state axis, so at (b, i) it is
the row sum of row `b`, whatever `i` is. -/

theorem operator_left_at (b : Fin 16384) (i k : Fin 512) : lidx_main_v31 (ix2 b i) k = ix2 b k :=
  funext fun a => Fin.ext (by match a with | ⟨0, _⟩ => rfl | ⟨1, _⟩ => rfl)
theorem operator_right_at (b : Fin 16384) (i k : Fin 512) : ridx_main_v31 (ix2 b i) k = ix2 i k :=
  funext fun a => Fin.ext (by match a with | ⟨0, _⟩ => rfl | ⟨1, _⟩ => rfl)

theorem quad_first_left_at (b : Fin 16384) (h k : Fin 512) : lidx_main_v32 (ix2 b h) k = ix2 b k :=
  funext fun a => Fin.ext (by match a with | ⟨0, _⟩ => rfl | ⟨1, _⟩ => rfl)
theorem quad_first_right_at (b : Fin 16384) (h k : Fin 512) : ridx_main_v32 (ix2 b h) k = ix2 k h :=
  funext fun a => Fin.ext (by match a with | ⟨0, _⟩ => rfl | ⟨1, _⟩ => rfl)
theorem quad_first_bias_at (b : Fin 16384) (h : Fin 512) : idx_main_v33 (idx_main_v34 (ix2 b h)) = ix1 h :=
  funext fun a => Fin.ext (by match a with | ⟨0, _⟩ => rfl)
theorem quad_second_left_at (b : Fin 16384) (d k : Fin 512) : lidx_main_v37 (ix2 b d) k = ix2 b k :=
  funext fun a => Fin.ext (by match a with | ⟨0, _⟩ => rfl | ⟨1, _⟩ => rfl)
theorem quad_second_right_at (b : Fin 16384) (d k : Fin 512) : ridx_main_v37 (ix2 b d) k = ix2 k d :=
  funext fun a => Fin.ext (by match a with | ⟨0, _⟩ => rfl | ⟨1, _⟩ => rfl)
theorem quad_second_bias_at (b : Fin 16384) (d : Fin 512) : idx_main_v38 (idx_main_v39 (ix2 b d)) = ix1 d :=
  funext fun a => Fin.ext (by match a with | ⟨0, _⟩ => rfl)
theorem quad_mean_row_at (b : Fin 16384) (i d : Fin 512) :
    idx_main_v50 (idx_main_v51 (idx_main_v54 (ix2 b i))) d = ix2 b d :=
  funext fun a => Fin.ext (by match a with | ⟨0, _⟩ => rfl | ⟨1, _⟩ => rfl)

theorem cubic_first_left_at (b : Fin 16384) (h k : Fin 512) : lidx_main_v41 (ix2 b h) k = ix2 b k :=
  funext fun a => Fin.ext (by match a with | ⟨0, _⟩ => rfl | ⟨1, _⟩ => rfl)
theorem cubic_first_right_at (b : Fin 16384) (h k : Fin 512) : ridx_main_v41 (ix2 b h) k = ix2 k h :=
  funext fun a => Fin.ext (by match a with | ⟨0, _⟩ => rfl | ⟨1, _⟩ => rfl)
theorem cubic_first_bias_at (b : Fin 16384) (h : Fin 512) : idx_main_v42 (idx_main_v43 (ix2 b h)) = ix1 h :=
  funext fun a => Fin.ext (by match a with | ⟨0, _⟩ => rfl)
theorem cubic_second_left_at (b : Fin 16384) (d k : Fin 512) : lidx_main_v46 (ix2 b d) k = ix2 b k :=
  funext fun a => Fin.ext (by match a with | ⟨0, _⟩ => rfl | ⟨1, _⟩ => rfl)
theorem cubic_second_right_at (b : Fin 16384) (d k : Fin 512) : ridx_main_v46 (ix2 b d) k = ix2 k d :=
  funext fun a => Fin.ext (by match a with | ⟨0, _⟩ => rfl | ⟨1, _⟩ => rfl)
theorem cubic_second_bias_at (b : Fin 16384) (d : Fin 512) : idx_main_v47 (idx_main_v48 (ix2 b d)) = ix1 d :=
  funext fun a => Fin.ext (by match a with | ⟨0, _⟩ => rfl)
theorem cubic_mean_row_at (b : Fin 16384) (i d : Fin 512) :
    idx_main_v55 (idx_main_v56 (idx_main_v59 (ix2 b i))) d = ix2 b d :=
  funext fun a => Fin.ext (by match a with | ⟨0, _⟩ => rfl | ⟨1, _⟩ => rfl)

/-! ## The linear term -/

/-- Entry (b, i) of the batch against the operator: row `b` of `x` against row `i` of the operator. -/
theorem linear_term_value (x0 : (⟨S16384x512, .f32⟩ : BufTy).Contents (Elt Ideal)) (x1 : (⟨S1, .f32⟩ : BufTy).Contents (Elt Ideal))
    (x2 : (⟨S512x512x5, .f32⟩ : BufTy).Contents (Elt Ideal)) (b : Fin 16384) (i : Fin 512) :
    val_main_v31 (F := Ideal) x0 x1 x2 (ix2 b i) = lin x0 (val_main_v30 (F := Ideal) x1 x2) b i := by
  rw [val_main_v31_apply]
  simp only [operator_left_at, operator_right_at]
  rfl

/-! ## The two graph blocks -/

/-- The quadratic block's hidden activation `h` on batch row `b`: the first layer, its bias, and the relu as a
    maximum with the zero word. -/
theorem quad_hidden_value (x0 : (⟨S16384x512, .f32⟩ : BufTy).Contents (Elt Ideal)) (x3 : (⟨S512x512, .f32⟩ : BufTy).Contents (Elt Ideal)) (x4 : (⟨S512, .f32⟩ : BufTy).Contents (Elt Ideal)) (b : Fin 16384) (h : Fin 512) :
    val_main_v36 (F := Ideal) x0 x3 x4 (ix2 b h) = hid x0 x3 x4 b h := by
  rw [val_main_v36_apply, val_main_v35_apply, val_main_v32_apply, val_main_v34_apply, val_main_v33_apply,
    val_main_call0_v0_apply, val_main_call0_cst_apply]
  simp only [quad_first_left_at, quad_first_right_at, quad_first_bias_at]
  rfl

/-- The cubic block's hidden activation. -/
theorem cubic_hidden_value (x0 : (⟨S16384x512, .f32⟩ : BufTy).Contents (Elt Ideal)) (x7 : (⟨S512x512, .f32⟩ : BufTy).Contents (Elt Ideal)) (x8 : (⟨S512, .f32⟩ : BufTy).Contents (Elt Ideal)) (b : Fin 16384) (h : Fin 512) :
    val_main_v45 (F := Ideal) x0 x7 x8 (ix2 b h) = hid x0 x7 x8 b h := by
  rw [val_main_v45_apply, val_main_v44_apply, val_main_v41_apply, val_main_v43_apply, val_main_v42_apply,
    val_main_call1_v0_apply, val_main_call1_cst_apply]
  simp only [cubic_first_left_at, cubic_first_right_at, cubic_first_bias_at]
  rfl

/-- The quadratic block's broadcast mean at (b, i): the second layer and its bias on row `b`, summed over the 512
    outputs from the zero word and divided by the word of 512; the same for every `i`. -/
theorem quad_mean_value (x0 : (⟨S16384x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal)) (b : Fin 16384) (i : Fin 512) :
    val_main_v54 (F := Ideal) x0 x3 x4 x5 x6 (ix2 b i) = meanAfter x0 x3 x4 x5 x6 b := by
  rw [val_main_v54_apply, val_main_v53_apply, val_main_v51_apply, val_main_v50_apply, val_main_v52_apply,
    val_main_cst_3_apply, val_main_cst_4_apply]
  simp only [val_main_v40_apply, val_main_v37_apply, val_main_v39_apply, val_main_v38_apply,
    quad_mean_row_at, quad_second_left_at, quad_second_right_at, quad_second_bias_at, quad_hidden_value]
  rfl

/-- The cubic block's broadcast mean at (b, i). -/
theorem cubic_mean_value (x0 : (⟨S16384x512, .f32⟩ : BufTy).Contents (Elt Ideal)) (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal)) (b : Fin 16384) (i : Fin 512) :
    val_main_v59 (F := Ideal) x0 x7 x8 x9 x10 (ix2 b i) = meanAfter x0 x7 x8 x9 x10 b := by
  rw [val_main_v59_apply, val_main_v58_apply, val_main_v56_apply, val_main_v55_apply, val_main_v57_apply,
    val_main_cst_5_apply, val_main_cst_6_apply]
  simp only [val_main_v49_apply, val_main_v46_apply, val_main_v48_apply, val_main_v47_apply,
    cubic_mean_row_at, cubic_second_left_at, cubic_second_right_at, cubic_second_bias_at, cubic_hidden_value]
  rfl

/-! ## The ENSO correction

The concatenation along the state axis has three pieces of extents 1, 1 and 510: component 0 falls in the first (the
temperature network's column), component 1 in the second (the thermocline network's column), every other component
in the third, which is the zero word everywhere. -/

theorem correction_value (x0 : (⟨S16384x512, .f32⟩ : BufTy).Contents (Elt Ideal)) (x11 : (⟨S5x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal))
    (x15 : (⟨S5x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal)) (b : Fin 16384) (i : Fin 512) :
    val_main_v92 (F := Ideal) x0 x11 x12 x13 x14 x15 x16 x17 x18 (ix2 b i)
      = enso (val_main_v81 (F := Ideal) x0 x11 x12 x13 x14) (val_main_v90 (F := Ideal) x0 x15 x16 x17 x18) b i := by
  unfold val_main_v92 enso
  by_cases h0 : i.val = 0
  · rw [if_pos h0]
    refine concatenate_apply_piece (1 : Fin S16384x512.rank) _ _ (ix2 b i) 0 (by show 0 < 3; omega) S16384x1 _ rfl rfl 0 rfl
      (ix2 b 0) ?_ ?_
    · intro a ha
      match a with
      | ⟨0, _⟩ => rfl
      | ⟨1, _⟩ => exact absurd rfl ha
    · show 0 + 0 = i.val
      omega
  · rw [if_neg h0]
    by_cases h1 : i.val = 1
    · rw [if_pos h1]
      refine concatenate_apply_piece (1 : Fin S16384x512.rank) _ _ (ix2 b i) 1 (by show 1 < 3; omega) S16384x1 _ rfl rfl 1 rfl
        (ix2 b 0) ?_ ?_
      · intro a ha
        match a with
        | ⟨0, _⟩ => rfl
        | ⟨1, _⟩ => exact absurd rfl ha
      · show 1 + 0 = i.val
        omega
    · rw [if_neg h1]
      have hi : i.val - 2 < 510 := by have := i.isLt; omega
      refine (concatenate_apply_piece (1 : Fin S16384x512.rank) _ _ (ix2 b i) 2 (by show 2 < 3; omega) S16384x510 _ rfl rfl 2 rfl
        (ix2 b ⟨i.val - 2, hi⟩) ?_ ?_).trans ?_
      · intro a ha
        match a with
        | ⟨0, _⟩ => rfl
        | ⟨1, _⟩ => exact absurd rfl ha
      · show 2 + (i.val - 2) = i.val
        omega
      · rw [val_main_v91_apply, val_main_cst_7_apply]
        rfl

/-! ## The result -/

/-- Entry (b, i) of the reference's result is the specification's `refOut` of the batch, the seasonal operator as
    the reference computes it, the eight block parameters and the two ENSO networks' outputs as the reference
    computes them. -/
theorem ref_value (x0 : (⟨S16384x512, .f32⟩ : BufTy).Contents (Elt Ideal)) (x1 : (⟨S1, .f32⟩ : BufTy).Contents (Elt Ideal))
    (x2 : (⟨S512x512x5, .f32⟩ : BufTy).Contents (Elt Ideal))
    (x3 : (⟨S512x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x512, .f32⟩ : BufTy).Contents (Elt Ideal)) (x8 : (⟨S512, .f32⟩ : BufTy).Contents (Elt Ideal)) (x9 : (⟨S512x512, .f32⟩ : BufTy).Contents (Elt Ideal)) (x10 : (⟨S512, .f32⟩ : BufTy).Contents (Elt Ideal))
    (x11 : (⟨S5x32, .f32⟩ : BufTy).Contents (Elt Ideal)) (x12 : (⟨S32, .f32⟩ : BufTy).Contents (Elt Ideal)) (x13 : (⟨S32x1, .f32⟩ : BufTy).Contents (Elt Ideal)) (x14 : (⟨S1, .f32⟩ : BufTy).Contents (Elt Ideal))
    (x15 : (⟨S5x32, .f32⟩ : BufTy).Contents (Elt Ideal)) (x16 : (⟨S32, .f32⟩ : BufTy).Contents (Elt Ideal)) (x17 : (⟨S32x1, .f32⟩ : BufTy).Contents (Elt Ideal)) (x18 : (⟨S1, .f32⟩ : BufTy).Contents (Elt Ideal)) (b : Fin 16384) (i : Fin 512) :
    val_main_v94 (F := Ideal) x0 x1 x2 x3 x4 x5 x6 x7 x8 x9 x10 x11 x12 x13 x14 x15 x16 x17 x18 (ix2 b i)
      = refOut x0 (val_main_v30 (F := Ideal) x1 x2) x3 x4 x5 x6 x7 x8 x9 x10
          (val_main_v81 (F := Ideal) x0 x11 x12 x13 x14) (val_main_v90 (F := Ideal) x0 x15 x16 x17 x18) b i := by
  rw [val_main_v94_apply, val_main_v93_apply, val_main_v60_apply, linear_term_value, quad_mean_value,
    cubic_mean_value, correction_value]
  rfl

end Cert.ReferenceIdeal.RefValue

end
-- ==== Proof.Finite.lean ====
/-
  From the precondition to real numbers.

  The precondition asks, of each of the nineteen argument arrays, that every entry's absolute value be below +∞,
  and joins the nineteen answers by `and`. At the ideal instance an entry is an extended real, its absolute value is
  `max x (-x)`, and the word 0x7F800000 denotes +∞; an extended real whose absolute value is below +∞ is neither
  infinity, so it is a real number. This is what lets a finite sum be exchanged with a product by a constant and
  with a division, in the arrays the two programs' block means are taken over: the batch and the eight parameters
  of the two graph blocks.
-/
import proofs.«131511_j39754217292306_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The scalar shape has one index. -/
instance scalarIdx_subsingleton : Subsingleton S_.Idx := ⟨fun a b => funext fun d => d.elim0⟩

/-- An extended real whose absolute value is below the word of +∞ is a real number. -/
theorem real_of_abs_lt_inf (x : EReal) (h : max x (-x) < Ideal.ofBits .f32 0x7F800000#32) : ∃ r : ℝ, x = (r : EReal) := by
  have hinf : Ideal.ofBits .f32 0x7F800000#32 = ⊤ := by simp [Ideal.ofBits, Ideal.ieee]
  rw [hinf] at h
  induction x using EReal.rec with
  | bot => simp at h
  | coe r => exact ⟨r, rfl⟩
  | top => simp at h

/-- The comparison `|x| < +∞` answering 1 says `x` is a real number. -/
theorem real_of_flag (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  apply real_of_abs_lt_inf
  by_contra hn
  have h' : BitVec.ofBool (decide (max x (-x) < Ideal.ofBits .f32 0x7F800000#32)) = 1#1 := h
  rw [decide_eq_false hn] at h'
  exact absurd h' (by decide)

/-- One argument's conjunct: if "all entries have absolute value below +∞" answers 1, every entry is a real number. -/
theorem array_real {s : Shape} {axes : List (Fin s.rank)} (x : FVec Ideal s .f32)
    (hb : S_.BroadcastsInDim s (![] : Fin 0 → Fin s.rank)) (hr : s.ReducesTo axes S_) (h0 : 0 < S_.numel)
    (e : Host.reduce IntOp.andi (cmpf .olt (Host.absf x) (broadcastInDim s ![] hb (constant (F := Ideal) S_ .f32 0x7F800000#32)))
          (constantI S_ 1 1#1) hr h0 ValueIdx.ix0 = 1#1) (j : s.Idx) : ∃ r : ℝ, x j = (r : EReal) :=
  real_of_flag (x j) (Host.reduce_andi_all _ _ hr h0 ValueIdx.ix0 e j)

variable [Facts]

set_option maxHeartbeats 400000 in
/-- The precondition, decoded for the arrays the block means are taken over: the batch and the two graph blocks'
    weights and biases hold real numbers only. -/
theorem reals_of_pre (a0 : FVec Ideal S16384x512 .f32) (a1 : FVec Ideal S1 .f32) (a2 : FVec Ideal S512x512x5 .f32) (a3 : FVec Ideal S512x512 .f32) (a4 : FVec Ideal S512 .f32) (a5 : FVec Ideal S512x512 .f32) (a6 : FVec Ideal S512 .f32) (a7 : FVec Ideal S512x512 .f32) (a8 : FVec Ideal S512 .f32) (a9 : FVec Ideal S512x512 .f32) (a10 : FVec Ideal S512 .f32) (a11 : FVec Ideal S5x32 .f32) (a12 : FVec Ideal S32 .f32) (a13 : FVec Ideal S32x1 .f32) (a14 : FVec Ideal S1 .f32) (a15 : FVec Ideal S5x32 .f32) (a16 : FVec Ideal S32 .f32) (a17 : FVec Ideal S32x1 .f32) (a18 : FVec Ideal S1 .f32)
    (h : fn (F := Ideal) a0 a1 a2 a3 a4 a5 a6 a7 a8 a9 a10 a11 a12 a13 a14 a15 a16 a17 a18 = fun _ => 1#1) :
    (∀ j, ∃ r : ℝ, a0 j = (r : EReal))
      ∧ (∀ j, ∃ r : ℝ, a3 j = (r : EReal))
      ∧ (∀ j, ∃ r : ℝ, a4 j = (r : EReal))
      ∧ (∀ j, ∃ r : ℝ, a5 j = (r : EReal))
      ∧ (∀ j, ∃ r : ℝ, a6 j = (r : EReal))
      ∧ (∀ j, ∃ r : ℝ, a7 j = (r : EReal))
      ∧ (∀ j, ∃ r : ℝ, a8 j = (r : EReal))
      ∧ (∀ j, ∃ r : ℝ, a9 j = (r : EReal))
      ∧ (∀ j, ∃ r : ℝ, a10 j = (r : EReal)) := by
  have e := congrFun h ValueIdx.ix0
  dsimp only [fn, fn_part1, fn_part2, fn_part3, fn_part4, fn_part5] at e
  simp only [andi, IntOp.andi_eq_one] at e
  obtain ⟨⟨⟨⟨⟨⟨⟨⟨⟨⟨⟨⟨⟨⟨⟨⟨⟨⟨f0, f1⟩, f2⟩, f3⟩, f4⟩, f5⟩, f6⟩, f7⟩, f8⟩, f9⟩, f10⟩, f11⟩, f12⟩, f13⟩, f14⟩, f15⟩, f16⟩, f17⟩, f18⟩ := e
  exact ⟨array_real a0 _ _ _ f0, array_real a3 _ _ _ f3, array_real a4 _ _ _ f4, array_real a5 _ _ _ f5, array_real a6 _ _ _ f6, array_real a7 _ _ _ f7, array_real a8 _ _ _ f8, array_real a9 _ _ _ f9, array_real a10 _ _ _ f10⟩

/-! ## One array at a time -/

section OneArray
variable {a0 : FVec Ideal S16384x512 .f32} {a1 : FVec Ideal S1 .f32} {a2 : FVec Ideal S512x512x5 .f32} {a3 : FVec Ideal S512x512 .f32} {a4 : FVec Ideal S512 .f32} {a5 : FVec Ideal S512x512 .f32} {a6 : FVec Ideal S512 .f32} {a7 : FVec Ideal S512x512 .f32} {a8 : FVec Ideal S512 .f32} {a9 : FVec Ideal S512x512 .f32} {a10 : FVec Ideal S512 .f32} {a11 : FVec Ideal S5x32 .f32} {a12 : FVec Ideal S32 .f32} {a13 : FVec Ideal S32x1 .f32} {a14 : FVec Ideal S1 .f32} {a15 : FVec Ideal S5x32 .f32} {a16 : FVec Ideal S32 .f32} {a17 : FVec Ideal S32x1 .f32} {a18 : FVec Ideal S1 .f32}
  (h : fn (F := Ideal) a0 a1 a2 a3 a4 a5 a6 a7 a8 a9 a10 a11 a12 a13 a14 a15 a16 a17 a18 = fun _ => 1#1)
include h

/-- Every entry of the batch `x` is a real number. -/
theorem batch_real : ∀ j, ∃ r : ℝ, a0 j = (r : EReal) := (reals_of_pre a0 a1 a2 a3 a4 a5 a6 a7 a8 a9 a10 a11 a12 a13 a14 a15 a16 a17 a18 h).1
/-- Every entry of the quadratic block's first-layer weights is a real number. -/
theorem quad_first_weight_real : ∀ j, ∃ r : ℝ, a3 j = (r : EReal) := (reals_of_pre a0 a1 a2 a3 a4 a5 a6 a7 a8 a9 a10 a11 a12 a13 a14 a15 a16 a17 a18 h).2.1
/-- Every entry of the quadratic block's first-layer bias is a real number. -/
theorem quad_first_bias_real : ∀ j, ∃ r : ℝ, a4 j = (r : EReal) := (reals_of_pre a0 a1 a2 a3 a4 a5 a6 a7 a8 a9 a10 a11 a12 a13 a14 a15 a16 a17 a18 h).2.2.1
/-- Every entry of the quadratic block's second-layer weights is a real number. -/
theorem quad_second_weight_real : ∀ j, ∃ r : ℝ, a5 j = (r : EReal) := (reals_of_pre a0 a1 a2 a3 a4 a5 a6 a7 a8 a9 a10 a11 a12 a13 a14 a15 a16 a17 a18 h).2.2.2.1
/-- Every entry of the quadratic block's second-layer bias is a real number. -/
theorem quad_second_bias_real : ∀ j, ∃ r : ℝ, a6 j = (r : EReal) := (reals_of_pre a0 a1 a2 a3 a4 a5 a6 a7 a8 a9 a10 a11 a12 a13 a14 a15 a16 a17 a18 h).2.2.2.2.1
/-- Every entry of the cubic block's first-layer weights is a real number. -/
theorem cubic_first_weight_real : ∀ j, ∃ r : ℝ, a7 j = (r : EReal) := (reals_of_pre a0 a1 a2 a3 a4 a5 a6 a7 a8 a9 a10 a11 a12 a13 a14 a15 a16 a17 a18 h).2.2.2.2.2.1
/-- Every entry of the cubic block's first-layer bias is a real number. -/
theorem cubic_first_bias_real : ∀ j, ∃ r : ℝ, a8 j = (r : EReal) := (reals_of_pre a0 a1 a2 a3 a4 a5 a6 a7 a8 a9 a10 a11 a12 a13 a14 a15 a16 a17 a18 h).2.2.2.2.2.2.1
/-- Every entry of the cubic block's second-layer weights is a real number. -/
theorem cubic_second_weight_real : ∀ j, ∃ r : ℝ, a9 j = (r : EReal) := (reals_of_pre a0 a1 a2 a3 a4 a5 a6 a7 a8 a9 a10 a11 a12 a13 a14 a15 a16 a17 a18 h).2.2.2.2.2.2.2.1
/-- Every entry of the cubic block's second-layer bias is a real number. -/
theorem cubic_second_bias_real : ∀ j, ∃ r : ℝ, a10 j = (r : EReal) := (reals_of_pre a0 a1 a2 a3 a4 a5 a6 a7 a8 a9 a10 a11 a12 a13 a14 a15 a16 a17 a18 h).2.2.2.2.2.2.2.2

end OneArray

end Cert.FiniteInputs

end
-- ==== Proof.MeanLaw.lean ====
/-
  The one law that joins the two programs: the mean of a graph block may be taken before or after its second
  layer. Over the reals, for hidden activations `a h`, second-layer weights `W h d` and biases `v d`,
      ∑_h a h · ((∑_d W h d) / n) + (∑_d v d) / n = (∑_d (∑_h a h · W h d + v d)) / n,
  by exchanging the two finite sums and moving the constant factors across them. On the extended reals the
  same identity holds when every entry is a real number: each side is then the image of the corresponding real
  expression, sums, products, maxima and the division by 512 all commuting with the inclusion of the reals.
-/
import proofs.«131511_j39754217292306_2_alg».proof.Proof.Spec

noncomputable section

namespace Cert.Seasonal

open Idealize.ShloMosaic Idealize.ShloMosaic.ValueIdx

/-- The zero word denotes the real 0. -/
theorem z32_eq : z32 = ((0 : ℝ) : EReal) := by
  unfold z32; simp [Ideal.ofBits, Ideal.ieee]

/-- The word `0x44000000` denotes the real 512. -/
theorem n512_eq : n512 = ((512 : ℝ) : EReal) := by
  unfold n512; simp [Ideal.ofBits, Ideal.ieee, -EReal.coe_mul]; norm_num

/-- The inclusion of the reals commutes with finite sums. -/
theorem coe_sum {ι : Type} (s : Finset ι) (f : ι → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

/-- The inclusion of the reals commutes with the maximum of two numbers. -/
theorem coe_max (a b : ℝ) : max (a : EReal) (b : EReal) = ((max a b : ℝ) : EReal) :=
  (EReal.coe_strictMono.monotone.map_max).symm

/-- Division by 512 on the extended reals is the product with the real 1/512. -/
theorem div_n512 (y : EReal) : Ideal.div y n512 = y * (((1 / 512 : ℝ)) : EReal) := by
  rw [n512_eq]; exact Ideal.div_coe (by norm_num) y

/-- The law over the reals. -/
theorem mean_real {ι κ : Type} [Fintype ι] [Fintype κ] (a : ι → ℝ) (W : ι → κ → ℝ) (v : κ → ℝ) (c : ℝ) :
    (∑ h, a h * ((0 + ∑ d, W h d) * c)) + (0 + ∑ d, v d) * c
      = (0 + ∑ d, ((∑ h, a h * W h d) + v d)) * c := by
  simp only [zero_add]
  rw [Finset.sum_add_distrib, add_mul, Finset.sum_comm]
  congr 1
  rw [Finset.sum_mul]
  refine Finset.sum_congr rfl fun h _ => ?_
  rw [← Finset.mul_sum, mul_assoc]

/-- A hidden activation of real inputs is a real number. -/
theorem hid_coe (xr : (⟨2, ![16384, 512]⟩ : Shape).Idx → ℝ) (W1r : (⟨2, ![512, 512]⟩ : Shape).Idx → ℝ)
    (b1r : (⟨1, ![512]⟩ : Shape).Idx → ℝ) (b : Fin 16384) (h : Fin 512) :
    hid (fun j => (xr j : EReal)) (fun j => (W1r j : EReal)) (fun j => (b1r j : EReal)) b h
      = ((max ((∑ k : Fin 512, xr (ix2 b k) * W1r (ix2 k h)) + b1r (ix1 h)) 0 : ℝ) : EReal) := by
  unfold hid
  rw [z32_eq]
  simp only [← EReal.coe_mul, coe_sum, ← EReal.coe_add, coe_max]

/-- The law on the extended reals, for arrays of real numbers. -/
theorem meanBefore_eq_meanAfter (x : Mat 16384 512) (W1 : Mat 512 512) (b1 : Vct 512) (W2 : Mat 512 512) (b2 : Vct 512)
    (hx : ∀ j, ∃ r : ℝ, x j = (r : EReal)) (hW1 : ∀ j, ∃ r : ℝ, W1 j = (r : EReal)) (hb1 : ∀ j, ∃ r : ℝ, b1 j = (r : EReal))
    (hW2 : ∀ j, ∃ r : ℝ, W2 j = (r : EReal)) (hb2 : ∀ j, ∃ r : ℝ, b2 j = (r : EReal)) (b : Fin 16384) :
    meanBefore x W1 b1 W2 b2 b = meanAfter x W1 b1 W2 b2 b := by
  choose xr hxr using hx
  choose W1r hW1r using hW1
  choose b1r hb1r using hb1
  choose W2r hW2r using hW2
  choose b2r hb2r using hb2
  obtain rfl : x = fun j => (xr j : EReal) := funext hxr
  obtain rfl : W1 = fun j => (W1r j : EReal) := funext hW1r
  obtain rfl : b1 = fun j => (b1r j : EReal) := funext hb1r
  obtain rfl : W2 = fun j => (W2r j : EReal) := funext hW2r
  obtain rfl : b2 = fun j => (b2r j : EReal) := funext hb2r
  unfold meanBefore meanAfter
  simp only [hid_coe, div_n512, z32_eq, ← EReal.coe_mul, coe_sum, ← EReal.coe_add]
  exact congrArg _ (mean_real _ _ _ _)

/-- The two programs' values agree, entry by entry, on arrays of real numbers. -/
theorem kerOut_eq_refOut (x : Mat 16384 512) (L : Mat 512 512) (qW1 : Mat 512 512) (qb1 : Vct 512) (qW2 : Mat 512 512) (qb2 : Vct 512)
    (cW1 : Mat 512 512) (cb1 : Vct 512) (cW2 : Mat 512 512) (cb2 : Vct 512) (cT cH : Mat 16384 1)
    (hx : ∀ j, ∃ r : ℝ, x j = (r : EReal))
    (hqW1 : ∀ j, ∃ r : ℝ, qW1 j = (r : EReal)) (hqb1 : ∀ j, ∃ r : ℝ, qb1 j = (r : EReal))
    (hqW2 : ∀ j, ∃ r : ℝ, qW2 j = (r : EReal)) (hqb2 : ∀ j, ∃ r : ℝ, qb2 j = (r : EReal))
    (hcW1 : ∀ j, ∃ r : ℝ, cW1 j = (r : EReal)) (hcb1 : ∀ j, ∃ r : ℝ, cb1 j = (r : EReal))
    (hcW2 : ∀ j, ∃ r : ℝ, cW2 j = (r : EReal)) (hcb2 : ∀ j, ∃ r : ℝ, cb2 j = (r : EReal))
    (b : Fin 16384) (i : Fin 512) :
    kerOut x L qW1 qb1 qW2 qb2 cW1 cb1 cW2 cb2 cT cH b i = refOut x L qW1 qb1 qW2 qb2 cW1 cb1 cW2 cb2 cT cH b i := by
  unfold kerOut refOut
  rw [meanBefore_eq_meanAfter x qW1 qb1 qW2 qb2 hx hqW1 hqb1 hqW2 hqb2 b,
    meanBefore_eq_meanAfter x cW1 cb1 cW2 cb2 hx hcW1 hcb1 hcW2 hcb2 b]
  by_cases hi : i.val < 128
  · rw [if_pos hi]; simp only [add_assoc]
  · rw [if_neg hi]
    have he : enso cT cH b i = z32 := by
      unfold enso
      rw [if_neg (by omega), if_neg (by omega)]
    rw [he, z32_eq, EReal.coe_zero, add_zero, add_assoc]

end Cert.Seasonal

end
-- ==== Proof.lean ====
/-
  The kernel program — host operations preparing the seasonal operator, the side-by-side first-layer weights,
  the averaged second layers and the packed ENSO outputs, then one pipelined kernel over sixteen tiles of 1024
  batch rows — against its reference, at the exact values and for finite inputs.

  • The three programs run to the end without a fault and leave their arguments unchanged: for the kernel
    program (at the machine's words and at the exact values) by the pipeline's frame, its body run symbolically;
    for the reference, a host program, by its run with the result dropped.
  • The idealization rewrote no operation, so nothing is owed for it.
  • The two results agree: after its run the kernel program's output array is, entry by entry, the
    specification's `kerOut` of the arguments (the linear term plus each graph block's mean, taken BEFORE the
    second layer, plus the ENSO correction in the first 128 lanes), the reference's is `refOut` (the means taken
    AFTER the second layer, the correction concatenated with zeros), and the two are one number when every input
    is a real number, which the precondition says.
-/
import proofs.«131511_j39754217292306_2_alg».proof.Defs
import proofs.«131511_j39754217292306_2_alg».proof.Proof.Gen.Kernel
import proofs.«131511_j39754217292306_2_alg».proof.Proof.Gen.KernelIdeal
import proofs.«131511_j39754217292306_2_alg».proof.Proof.Gen.ReferenceIdeal
import proofs.«131511_j39754217292306_2_alg».proof.Proof.Gen.Pre_finite_inputs
import proofs.«131511_j39754217292306_2_alg».proof.Proof.Gen.ReferenceIdeal.Run
import proofs.«131511_j39754217292306_2_alg».proof.Proof.Gen.ReferenceIdeal.Read
import proofs.«131511_j39754217292306_2_alg».proof.Proof.KFrame
import proofs.«131511_j39754217292306_2_alg».proof.Proof.KFrameBits
import proofs.«131511_j39754217292306_2_alg».proof.Proof.KValue
import proofs.«131511_j39754217292306_2_alg».proof.Proof.RefValue
import proofs.«131511_j39754217292306_2_alg».proof.Proof.Finite
import proofs.«131511_j39754217292306_2_alg».proof.Proof.MeanLaw

noncomputable section

namespace Cert.Proof

open Idealize.ShloMosaic Idealize.ShloMosaic.TcCoe Idealize.ShloMosaic.ValueIdx Idealize.SL.Sem

/-- The kernel program at the machine's words runs and keeps its arguments. -/
theorem frame_kernel [Cert.Kernel.Facts] [Cert.Pre_finite_inputs.Facts] : Cert.frame_Kernel :=
  fun m ρ _ => Cert.Kernel.Entry.frame m ρ

/-- The kernel program at the exact values runs and keeps its arguments. -/
theorem frame_kernelIdeal [Cert.KernelIdeal.Facts] [Cert.Pre_finite_inputs.Facts] : Cert.frame_KernelIdeal :=
  fun m ρ _ => Cert.KernelIdeal.Entry.frame m ρ

/-- The reference runs and keeps its arguments: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The ideal pass rewrote nothing. -/
theorem preserves : Cert.preserves_Kernel_KernelIdeal := trivial

/-- From memories agreeing on the arguments both programs end with the same result, entry by entry. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Whole.result m c, ?_, ?_⟩
  · exact (θ_run Cert.KernelIdeal.defs _ _).mono
      (fun r h c => ⟨((h c).1 9).trans (Cert.KernelIdeal.Whole.final m c), Cert.KernelIdeal.Entry.args_kept m r h c⟩)
      (Cert.KernelIdeal.Entry.run_main m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15, a16, a17, a18⟩ := hagree c
    rw [Cert.ReferenceIdeal.Read.val_main_v94_eq, a0, a1, a2, a3, a4, a5, a6, a7, a8, a9, a10, a11, a12, a13, a14, a15, a16, a17, a18]
    funext j
    obtain ⟨b, i, rfl⟩ : ∃ (b : Fin 16384) (i : Fin 512), j = ix2 b i := ⟨j 0, j 1, eq_ix2 j⟩
    rw [Cert.ReferenceIdeal.RefValue.ref_value]
    exact (Cert.Seasonal.kerOut_eq_refOut _ _ _ _ _ _ _ _ _ _ _ _
      (Cert.FiniteInputs.batch_real (hpre c))
      (Cert.FiniteInputs.quad_first_weight_real (hpre c)) (Cert.FiniteInputs.quad_first_bias_real (hpre c))
      (Cert.FiniteInputs.quad_second_weight_real (hpre c)) (Cert.FiniteInputs.quad_second_bias_real (hpre c))
      (Cert.FiniteInputs.cubic_first_weight_real (hpre c)) (Cert.FiniteInputs.cubic_first_bias_real (hpre c))
      (Cert.FiniteInputs.cubic_second_weight_real (hpre c)) (Cert.FiniteInputs.cubic_second_bias_real (hpre c)) b i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
